-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S2x6400000 : Shape := ⟨2, ![2, 6400000]⟩
abbrev S16x40 : Shape := ⟨2, ![16, 40]⟩
abbrev S40 : Shape := ⟨1, ![40]⟩
abbrev S40x24 : Shape := ⟨2, ![40, 24]⟩
abbrev S24 : Shape := ⟨1, ![24]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_
  bcast_S_S40x24 : S_.BroadcastsInDim S40x24 (![] : Fin 0 → Fin S40x24.rank)
  reducesTo_S40x24_S_d0_1 : S40x24.ReducesTo [0, 1] S_
  bcast_S_S24 : S_.BroadcastsInDim S24 (![] : Fin 0 → Fin S24.rank)
  reducesTo_S24_S_d0 : S24.ReducesTo [0] S_

variable [Facts]

def fn_part1 {F : FTy → Type} [FloatOps F] (main_arg5 : FVec F S40x24 .f32) (main_arg6 : FVec F S24 .f32) (main_arg7 : FVec F S40x24 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40x24 .f32 := Host.absf main_arg5
  let main_cst_6 : FVec F S_ .f32 := constant S_ .f32 0x7F800000#32
  let main_v20 : FVec F S40x24 .f32 := broadcastInDim S40x24 ![] bcast_S_S40x24 main_cst_6
  let main_v21 : IVec S40x24 1 := cmpf .olt main_v19 main_v20
  let main_c_7 : IVec S_ 1 := constantI S_ 1 1#1
  let main_v22 : IVec S_ 1 := (fun x v => Host.reduce IntOp.andi x v reducesTo_S40x24_S_d0_1 h_S_) main_v21 main_c_7
  let main_v23 : IVec S_ 1 := andi main_v18 main_v22
  let main_v24 : FVec F S24 .f32 := Host.absf main_arg6
  let main_cst_8 : FVec F S_ .f32 := constant S_ .f32 0x7F800000#32
  let main_v25 : FVec F S24 .f32 := broadcastInDim S24 ![] bcast_S_S24 main_cst_8
  let main_v26 : IVec S24 1 := cmpf .olt main_v24 main_v25
  let main_c_9 : IVec S_ 1 := constantI S_ 1 1#1
  let main_v27 : IVec S_ 1 := (fun x v => Host.reduce IntOp.andi x v reducesTo_S24_S_d0 h_S_) main_v26 main_c_9
  let main_v28 : IVec S_ 1 := andi main_v23 main_v27
  let main_v29 : FVec F S40x24 .f32 := Host.absf main_arg7
  let main_cst_10 : FVec F S_ .f32 := constant S_ .f32 0x7F800000#32
  let main_v30 : FVec F S40x24 .f32 := broadcastInDim S40x24 ![] bcast_S_S40x24 main_cst_10
  let main_v31 : IVec S40x24 1 := cmpf .olt main_v29 main_v30
  let main_c_11 : IVec S_ 1 := constantI S_ 1 1#1
  let main_v32 : IVec S_ 1 := (fun x v => Host.reduce IntOp.andi x v reducesTo_S40x24_S_d0_1 h_S_) main_v31 main_c_11
  let main_v33 : IVec S_ 1 := andi main_v28 main_v32
  main_v33

def fn {F : FTy → Type} [FloatOps F] (main_arg0 : FVec F S200000x16 .f32) (main_arg1 : IVec S2x6400000 32) (main_arg2 : FVec F S16x40 .f32) (main_arg3 : FVec F S40 .f32) (main_arg4 : FVec F S16x40 .f32) (main_arg5 : FVec F S40x24 .f32) (main_arg6 : FVec F S24 .f32) (main_arg7 : FVec F S40x24 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S16x40 .f32 := Host.absf main_arg2
  let main_cst_0 : FVec F S_ .f32 := constant S_ .f32 0x7F800000#32
  let main_v5 : FVec F S16x40 .f32 := broadcastInDim S16x40 ![] bcast_S_S16x40 main_cst_0
  let main_v6 : IVec S16x40 1 := cmpf .olt main_v4 main_v5
  let main_c_1 : IVec S_ 1 := constantI S_ 1 1#1
  let main_v7 : IVec S_ 1 := (fun x v => Host.reduce IntOp.andi x v reducesTo_S16x40_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_arg6 main_arg7 main_v13 main_v16
-- ==== Kernel.lean ====
abbrev S200000x16 : Shape := ⟨2, ![200000, 16]⟩
abbrev S2x6400000 : Shape := ⟨2, ![2, 6400000]⟩
abbrev S16x40 : Shape := ⟨2, ![16, 40]⟩
abbrev S40 : Shape := ⟨1, ![40]⟩
abbrev S40x24 : Shape := ⟨2, ![40, 24]⟩
abbrev S24 : Shape := ⟨1, ![24]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S6400000x16 : Shape := ⟨2, ![6400000, 16]⟩
abbrev S200000x1 : Shape := ⟨2, ![200000, 1]⟩
abbrev S1x40 : Shape := ⟨2, ![1, 40]⟩
abbrev S200000x40 : Shape := ⟨2, ![200000, 40]⟩
abbrev S10000x16 : Shape := ⟨2, ![10000, 16]⟩
abbrev S10000x40 : Shape := ⟨2, ![10000, 40]⟩
abbrev S6400000x40 : Shape := ⟨2, ![6400000, 40]⟩
abbrev S1x24 : Shape := ⟨2, ![1, 24]⟩
abbrev S200000x24 : Shape := ⟨2, ![200000, 24]⟩
abbrev S10000x24 : Shape := ⟨2, ![10000, 24]⟩
abbrev S10000 : Shape := ⟨1, ![10000]⟩
abbrev S10000x1 : Shape := ⟨2, ![10000, 1]⟩

abbrev nBuf : Space → Nat
  | .hbm => 67
  | .vmem => 18
  | .smem => 0
  | _ => 0

abbrev bufTy : (tb : Table) → Fin (tcTables nBuf tb) → BufTy
  | .hbm, ⟨0, _⟩ => ⟨S200000x16, .f32⟩
  | .hbm, ⟨1, _⟩ => ⟨S2x6400000, .i32⟩
  | .hbm, ⟨2, _⟩ => ⟨S16x40, .f32⟩
  | .hbm, ⟨3, _⟩ => ⟨S40, .f32⟩
  | .hbm, ⟨4, _⟩ => ⟨S16x40, .f32⟩
  | .hbm, ⟨5, _⟩ => ⟨S40x24, .f32⟩
  | .hbm, ⟨6, _⟩ => ⟨S24, .f32⟩
  | .hbm, ⟨7, _⟩ => ⟨S40x24, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S6400000, .i32⟩
  | .hbm, ⟨33, _⟩ => ⟨S6400000, .i1⟩
  | .hbm, ⟨34, _⟩ => ⟨S_, .i32⟩
  | .hbm, ⟨35, _⟩ => ⟨S6400000, .i32⟩
  | .hbm, ⟨36, _⟩ => ⟨S6400000, .i32⟩
  | .hbm, ⟨37, _⟩ => ⟨S6400000, .i32⟩
  | .hbm, ⟨38, _⟩ => ⟨S6400000x1, .i32⟩
  | .hbm, ⟨39, _⟩ => ⟨S6400000x16, .f32⟩
  | .hbm, ⟨40, _⟩ => ⟨S_, .f32⟩
  | .hbm, ⟨41, _⟩ => ⟨S200000x16, .f32⟩
  | .hbm, ⟨42, _⟩ => ⟨S6400000x1, .i32⟩
  | .hbm, ⟨43, _⟩ => ⟨S200000x16, .f32⟩
  | .hbm, ⟨44, _⟩ => ⟨S200000x1, .f32⟩
  | .hbm, ⟨45, _⟩ => ⟨S200000x16, .f32⟩
  | .hbm, ⟨46, _⟩ => ⟨S200000x16, .f32⟩
  | .hbm, ⟨47, _⟩ => ⟨S1x40, .f32⟩
  | .hbm, ⟨48, _⟩ => ⟨S200000x40, .f32⟩
  | .hbm, ⟨49, _⟩ => ⟨S_, .i32⟩
  | .hbm, ⟨50, _⟩ => ⟨S6400000, .i32⟩
  | .hbm, ⟨51, _⟩ => ⟨S6400000, .i1⟩
  | .hbm, ⟨52, _⟩ => ⟨S_, .i32⟩
  | .hbm, ⟨53, _⟩ => ⟨S6400000, .i32⟩
  | .hbm, ⟨54, _⟩ => ⟨S6400000, .i32⟩
  | .hbm, ⟨55, _⟩ => ⟨S6400000, .i32⟩
  | .hbm, ⟨56, _⟩ => ⟨S6400000x1, .i32⟩
  | .hbm, ⟨57, _⟩ => ⟨S6400000x40, .f32⟩
  | .hbm, ⟨58, _⟩ => ⟨S_, .f32⟩
  | .hbm, ⟨59, _⟩ => ⟨S200000x40, .f32⟩
  | .hbm, ⟨60, _⟩ => ⟨S6400000x1, .i32⟩
  | .hbm, ⟨61, _⟩ => ⟨S200000x40, .f32⟩
  | .hbm, ⟨62, _⟩ => ⟨S200000x1, .f32⟩
  | .hbm, ⟨63, _⟩ => ⟨S200000x40, .f32⟩
  | .hbm, ⟨64, _⟩ => ⟨S200000x40, .f32⟩
  | .hbm, ⟨65, _⟩ => ⟨S1x24, .f32⟩
  | .hbm, ⟨66, _⟩ => ⟨S200000x24, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S16x40, .f32⟩
  | .local _ .vmem, ⟨5, _⟩ => ⟨S1x40, .f32⟩
  | .local _ .vmem, ⟨6, _⟩ => ⟨S16x40, .f32⟩
  | .local _ .vmem, ⟨7, _⟩ => ⟨S10000x40, .f32⟩
  | .local _ .vmem, ⟨8, _⟩ => ⟨S10000x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S40x24, .f32⟩
  | .local _ .vmem, ⟨14, _⟩ => ⟨S1x24, .f32⟩
  | .local _ .vmem, ⟨15, _⟩ => ⟨S40x24, .f32⟩
  | .local _ .vmem, ⟨16, _⟩ => ⟨S10000x24, .f32⟩
  | .local _ .vmem, ⟨17, _⟩ => ⟨S10000x24, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_7 : Ref sig .tc := ⟨.hbm, 49, rfl⟩
abbrev main_v30 : Ref sig .tc := ⟨.hbm, 50, rfl⟩
abbrev main_v31 : Ref sig .tc := ⟨.hbm, 51, rfl⟩
abbrev main_c_8 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x40 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S40x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x24 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S40x24 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x24 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  shapeCasts_S40_S1x40 : S40.ShapeCasts S1x40
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bitsLt_bf16_f32 : FTy.bits .bf16 < FTy.bits .f32
  inb_S16x40_S16x40_0_0 : ∀ a, (![0, 0] : Fin 2 → Nat) a + S16x40.size a ≤ S16x40.size a
  h_S16x40 : 0 < S16x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  inb_S10000x40_S10000x40_0_0 : ∀ a, (![0, 0] : Fin 2 → Nat) a + S10000x40.size a ≤ S10000x40.size a
  h_S10000x40 : 0 < S10000x40.numel
  bcast_S_S200000x40 : S_.BroadcastsInDim S200000x40 (![] : Fin 0 → Fin S200000x40.rank)
  bcast_S200000x1_S200000x40_0_1 : S200000x1.BroadcastsInDim S200000x40 (![0, 1] : Fin 2 → Fin S200000x40.rank)
  shapeCasts_S24_S1x24 : S24.ShapeCasts S1x24
  shapeCasts_S10000x40_S10000x40 : S10000x40.ShapeCasts S10000x40
  inb_S40x24_S40x24_0_0 : ∀ a, (![0, 0] : Fin 2 → Nat) a + S40x24.size a ≤ S40x24.size a
  h_S40x24 : 0 < S40x24.numel
  inb_S1x24_S1x24_0_0 : ∀ a, (![0, 0] : Fin 2 → Nat) a + S1x24.size a ≤ S1x24.size a
  h_S1x24 : 0 < S1x24.numel
  shapeCasts_S1x24_S1x24 : S1x24.ShapeCasts S1x24
  broadcasts_S1x24_S10000x24 : S1x24.Broadcasts S10000x24
  reduces_S10000x24_S10000 : S10000x24.Reduces [1] S10000
  shapeCasts_S10000_S10000x1 : S10000.ShapeCasts S10000x1
  broadcasts_S10000x1_S10000x24 : S10000x1.Broadcasts S10000x24
  inb_S10000x24_S10000x24_0_0 : ∀ a, (![0, 0] : Fin 2 → Nat) a + S10000x24.size a ≤ S10000x24.size a
  h_S10000x24 : 0 < S10000x24.numel
  scatter_S200000_S6400000x1_S6400000_n_0_0_1_wf : ScatterDims.WF S200000 S6400000x1 S6400000 [] [0] [0] 1
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S10000x16_S16x40_S10000x40_1_0_0_1_n_n_wf : DotDims.WF S10000x16 S16x40 S10000x40 [1] [0] [0] [1] [] []
  gather_S200000x40_S6400000x1_S6400000x40_1_0_n_n_0_1_140_wf : GatherDims.WF S200000x40 S6400000x1 S6400000x40 [1] [0] [] [0] [] 1 ![1, 40]
  scatter_S200000x40_S6400000x1_S6400000x40_1_0_0_1_wf : ScatterDims.WF S200000x40 S6400000x1 S6400000x40 [1] [0] [0] 1
  dot_S10000x40_S40x24_S10000x24_1_0_0_1_n_n_wf : DotDims.WF S10000x40 S40x24 S10000x24 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S200000x16.size a
  hwx0_0 : ∀ i : grid0.Coords, EltTy.bits .f32 = 32 ∨ (Rect.block (s := S200000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S200000x16.size a
  hwx0_1 : ∀ i : grid0.Coords, EltTy.bits .f32 = 32 ∨ (Rect.block (s := S200000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x40.size a ≤ S16x40.size a
  hwx0_2 : ∀ i : grid0.Coords, EltTy.bits .f32 = 32 ∨ (Rect.block (s := S16x40) S16x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x40.size a ≤ S1x40.size a
  hwx0_3 : ∀ i : grid0.Coords, EltTy.bits .f32 = 32 ∨ (Rect.block (s := S1x40) S1x40.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x40.size a ≤ S16x40.size a
  hwx0_4 : ∀ i : grid0.Coords, EltTy.bits .f32 = 32 ∨ (Rect.block (s := S16x40) S16x40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x40.size a ≤ S200000x40.size a
  hwx0_5 : ∀ i : grid0.Coords, EltTy.bits .f32 = 32 ∨ (Rect.block (s := S200000x40) S10000x40.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x40.size a ≤ S200000x40.size a
  hwx1_0 : ∀ i : grid1.Coords, EltTy.bits .f32 = 32 ∨ (Rect.block (s := S200000x40) S10000x40.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x40.size a ≤ S200000x40.size a
  hwx1_1 : ∀ i : grid1.Coords, EltTy.bits .f32 = 32 ∨ (Rect.block (s := S200000x40) S10000x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S40x24.size a ≤ S40x24.size a
  hwx1_2 : ∀ i : grid1.Coords, EltTy.bits .f32 = 32 ∨ (Rect.block (s := S40x24) S40x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x24.size a ≤ S1x24.size a
  hwx1_3 : ∀ i : grid1.Coords, EltTy.bits .f32 = 32 ∨ (Rect.block (s := S1x24) S1x24.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S40x24.size a ≤ S40x24.size a
  hwx1_4 : ∀ i : grid1.Coords, EltTy.bits .f32 = 32 ∨ (Rect.block (s := S40x24) S40x24.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x24.size a ≤ S200000x24.size a
  hwx1_5 : ∀ i : grid1.Coords, EltTy.bits .f32 = 32 ∨ (Rect.block (s := S200000x24) S10000x24.size (cc1_transform_5 i) (hinb1_5 i)).WholeWords (EltTy.packing .f32)

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S200000x40_S6400000x1_S6400000x40_1_0_n_n_0_1_140 : GatherDims S200000x40 S6400000x1 S6400000x40 where
  offsetDims := [1]
  collapsedSliceDims := [0]
  operandBatchingDims := []
  startIndicesBatchingDims := []
  startIndexMap := [0]
  indexVectorDim := 1
  sliceSizes := ![1, 40]
  wf := gather_S200000x40_S6400000x1_S6400000x40_1_0_n_n_0_1_140_wf
def scatter_S200000x40_S6400000x1_S6400000x40_1_0_0_1 : ScatterDims S200000x40 S6400000x1 S6400000x40 where
  updateWindowDims := [1]
  insertedWindowDims := [0]
  scatterDimsToOperandDims := [0]
  indexVectorDim := 1
  wf := scatter_S200000x40_S6400000x1_S6400000x40_1_0_0_1_wf
def dot_S10000x40_S40x24_S10000x24_1_0_0_1_n_n : DotDims S10000x40 S40x24 S10000x24 where
  lhsContracting := [1]
  rhsContracting := [0]
  lhsNonContracting := [0]
  rhsNonContracting := [1]
  lhsBatch := []
  rhsBatch := []
  wf := dot_S10000x40_S40x24_S10000x24_1_0_0_1_n_n_wf

abbrev win0_0 : Pipeline.Window sig grid0 :=
  Pipeline.Window.ofSpec (Memref.whole main_v27) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S10000x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x40.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S40x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x24.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S40x24.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S10000x24.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x16 : Shape := ⟨2, ![200000, 16]⟩
abbrev S2x6400000 : Shape := ⟨2, ![2, 6400000]⟩
abbrev S16x40 : Shape := ⟨2, ![16, 40]⟩
abbrev S40 : Shape := ⟨1, ![40]⟩
abbrev S40x24 : Shape := ⟨2, ![40, 24]⟩
abbrev S24 : Shape := ⟨1, ![24]⟩
abbrev S1x6400000 : Shape := ⟨2, ![1, 6400000]⟩
abbrev S6400000 : Shape := ⟨1, ![6400000]⟩
abbrev S_ : Shape := ⟨0, ![]⟩
abbrev S200000 : Shape := ⟨1, ![200000]⟩
abbrev S6400000x1 : Shape := ⟨2, ![6400000, 1]⟩
abbrev S6400000x16 : Shape := ⟨2, ![6400000, 16]⟩
abbrev S200000x1 : Shape := ⟨2, ![200000, 1]⟩
abbrev S200000x40 : Shape := ⟨2, ![200000, 40]⟩
abbrev S1x40 : Shape := ⟨2, ![1, 40]⟩
abbrev S6400000x40 : Shape := ⟨2, ![6400000, 40]⟩
abbrev S200000x24 : Shape := ⟨2, ![200000, 24]⟩
abbrev S1x24 : Shape := ⟨2, ![1, 24]⟩

abbrev nBuf : Space → Nat
  | .hbm => 93
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S2x6400000, .i32⟩
  | .hbm, ⟨2, _⟩ => ⟨S16x40, .f32⟩
  | .hbm, ⟨3, _⟩ => ⟨S40, .f32⟩
  | .hbm, ⟨4, _⟩ => ⟨S16x40, .f32⟩
  | .hbm, ⟨5, _⟩ => ⟨S40x24, .f32⟩
  | .hbm, ⟨6, _⟩ => ⟨S24, .f32⟩
  | .hbm, ⟨7, _⟩ => ⟨S40x24, .f32⟩
  | .hbm, ⟨8, _⟩ => ⟨S1x6400000, .i32⟩
  | .hbm, ⟨9, _⟩ => ⟨S6400000, .i32⟩
  | .hbm, ⟨10, _⟩ => ⟨S1x6400000, .i32⟩
  | .hbm, ⟨11, _⟩ => ⟨S6400000, .i32⟩
  | .hbm, ⟨12, _⟩ => ⟨S_, .f32⟩
  | .hbm, ⟨13, _⟩ => ⟨S6400000, .f32⟩
  | .hbm, ⟨14, _⟩ => ⟨S_, .f32⟩
  | .hbm, ⟨15, _⟩ => ⟨S200000, .f32⟩
  | .hbm, ⟨16, _⟩ => ⟨S6400000x1, .i32⟩
  | .hbm, ⟨17, _⟩ => ⟨S200000, .f32⟩
  | .hbm, ⟨18, _⟩ => ⟨S_, .f32⟩
  | .hbm, ⟨19, _⟩ => ⟨S200000, .f32⟩
  | .hbm, ⟨20, _⟩ => ⟨S200000, .i1⟩
  | .hbm, ⟨21, _⟩ => ⟨S_, .f32⟩
  | .hbm, ⟨22, _⟩ => ⟨S200000, .f32⟩
  | .hbm, ⟨23, _⟩ => ⟨S200000, .f32⟩
  | .hbm, ⟨24, _⟩ => ⟨S_, .f32⟩
  | .hbm, ⟨25, _⟩ => ⟨S200000, .f32⟩
  | .hbm, ⟨26, _⟩ => ⟨S200000, .f32⟩
  | .hbm, ⟨27, _⟩ => ⟨S_, .f32⟩
  | .hbm, ⟨28, _⟩ => ⟨S_, .f32⟩
  | .hbm, ⟨29, _⟩ => ⟨S200000, .f32⟩
  | .hbm, ⟨30, _⟩ => ⟨S200000, .f32⟩
  | .hbm, ⟨31, _⟩ => ⟨S_, .i32⟩
  | .hbm, ⟨32, _⟩ => ⟨S6400000, .i32⟩
  | .hbm, ⟨33, _⟩ => ⟨S6400000, .i1⟩
  | .hbm, ⟨34, _⟩ => ⟨S_, .i32⟩
  | .hbm, ⟨35, _⟩ => ⟨S6400000, .i32⟩
  | .hbm, ⟨36, _⟩ => ⟨S6400000, .i32⟩
  | .hbm, ⟨37, _⟩ => ⟨S6400000, .i32⟩
  | .hbm, ⟨38, _⟩ => ⟨S6400000x1, .i32⟩
  | .hbm, ⟨39, _⟩ => ⟨S6400000x16, .f32⟩
  | .hbm, ⟨40, _⟩ => ⟨S_, .f32⟩
  | .hbm, ⟨41, _⟩ => ⟨S200000x16, .f32⟩
  | .hbm, ⟨42, _⟩ => ⟨S6400000x1, .i32⟩
  | .hbm, ⟨43, _⟩ => ⟨S200000x16, .f32⟩
  | .hbm, ⟨44, _⟩ => ⟨S200000x1, .f32⟩
  | .hbm, ⟨45, _⟩ => ⟨S200000x16, .f32⟩
  | .hbm, ⟨46, _⟩ => ⟨S200000x16, .f32⟩
  | .hbm, ⟨47, _⟩ => ⟨S200000x40, .f32⟩
  | .hbm, ⟨48, _⟩ => ⟨S1x40, .f32⟩
  | .hbm, ⟨49, _⟩ => ⟨S200000x40, .f32⟩
  | .hbm, ⟨50, _⟩ => ⟨S200000x40, .f32⟩
  | .hbm, ⟨51, _⟩ => ⟨S200000x40, .f32⟩
  | .hbm, ⟨52, _⟩ => ⟨S200000x40, .f32⟩
  | .hbm, ⟨53, _⟩ => ⟨S_, .f32⟩
  | .hbm, ⟨54, _⟩ => ⟨S200000x40, .f32⟩
  | .hbm, ⟨55, _⟩ => ⟨S200000x40, .f32⟩
  | .hbm, ⟨56, _⟩ => ⟨S_, .i32⟩
  | .hbm, ⟨57, _⟩ => ⟨S6400000, .i32⟩
  | .hbm, ⟨58, _⟩ => ⟨S6400000, .i1⟩
  | .hbm, ⟨59, _⟩ => ⟨S_, .i32⟩
  | .hbm, ⟨60, _⟩ => ⟨S6400000, .i32⟩
  | .hbm, ⟨61, _⟩ => ⟨S6400000, .i32⟩
  | .hbm, ⟨62, _⟩ => ⟨S6400000, .i32⟩
  | .hbm, ⟨63, _⟩ => ⟨S6400000x1, .i32⟩
  | .hbm, ⟨64, _⟩ => ⟨S6400000x40, .f32⟩
  | .hbm, ⟨65, _⟩ => ⟨S_, .f32⟩
  | .hbm, ⟨66, _⟩ => ⟨S200000x40, .f32⟩
  | .hbm, ⟨67, _⟩ => ⟨S6400000x1, .i32⟩
  | .hbm, ⟨68, _⟩ => ⟨S200000x40, .f32⟩
  | .hbm, ⟨69, _⟩ => ⟨S200000x1, .f32⟩
  | .hbm, ⟨70, _⟩ => ⟨S200000x40, .f32⟩
  | .hbm, ⟨71, _⟩ => ⟨S200000x40, .f32⟩
  | .hbm, ⟨72, _⟩ => ⟨S200000x24, .f32⟩
  | .hbm, ⟨73, _⟩ => ⟨S1x24, .f32⟩
  | .hbm, ⟨74, _⟩ => ⟨S200000x24, .f32⟩
  | .hbm, ⟨75, _⟩ => ⟨S200000x24, .f32⟩
  | .hbm, ⟨76, _⟩ => ⟨S200000x24, .f32⟩
  | .hbm, ⟨77, _⟩ => ⟨S200000x24, .f32⟩
  | .hbm, ⟨78, _⟩ => ⟨S_, .f32⟩
  | .hbm, ⟨79, _⟩ => ⟨S200000, .f32⟩
  | .hbm, ⟨80, _⟩ => ⟨S_, .f32⟩
  | .hbm, ⟨81, _⟩ => ⟨S200000, .f32⟩
  | .hbm, ⟨82, _⟩ => ⟨S200000, .f32⟩
  | .hbm, ⟨83, _⟩ => ⟨S200000x1, .f32⟩
  | .hbm, ⟨84, _⟩ => ⟨S200000x24, .f32⟩
  | .hbm, ⟨85, _⟩ => ⟨S200000x24, .f32⟩
  | .hbm, ⟨86, _⟩ => ⟨S200000x24, .f32⟩
  | .hbm, ⟨87, _⟩ => ⟨S_, .f32⟩
  | .hbm, ⟨88, _⟩ => ⟨S200000, .f32⟩
  | .hbm, ⟨89, _⟩ => ⟨S200000x1, .f32⟩
  | .hbm, ⟨90, _⟩ => ⟨S200000x1, .f32⟩
  | .hbm, ⟨91, _⟩ => ⟨S200000x24, .f32⟩
  | .hbm, ⟨92, _⟩ => ⟨S200000x24, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call1_cst : Ref sig .tc := ⟨.hbm, 53, rfl⟩
abbrev main_call1_v0 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_call2_cst_0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_cst_1 : Ref sig .tc := ⟨.hbm, 87, rfl⟩
abbrev main_call2_v7 : Ref sig .tc := ⟨.hbm, 88, rfl⟩
abbrev main_call2_v8 : Ref sig .tc := ⟨.hbm, 89, rfl⟩
abbrev main_call2_v9 : Ref sig .tc := ⟨.hbm, 90, rfl⟩
abbrev main_call2_v10 : Ref sig .tc := ⟨.hbm, 91, rfl⟩
abbrev main_v54 : Ref sig .tc := ⟨.hbm, 92, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S_S200000 : S_.BroadcastsInDim S200000 (![] : Fin 0 → Fin S200000.rank)
  bcast_S6400000_S6400000x1_0 : S6400000.BroadcastsInDim S6400000x1 (![0] : Fin 1 → Fin S6400000x1.rank)
  bcast_S_S200000x16 : S_.BroadcastsInDim S200000x16 (![] : Fin 0 → Fin S200000x16.rank)
  bcast_S200000_S200000x1_0 : S200000.BroadcastsInDim S200000x1 (![0] : Fin 1 → Fin S200000x1.rank)
  bcast_S200000x1_S200000x16_0_1 : S200000x1.BroadcastsInDim S200000x16 (![0, 1] : Fin 2 → Fin S200000x16.rank)
  bcast_S40_S1x40_1 : S40.BroadcastsInDim S1x40 (![1] : Fin 1 → Fin S1x40.rank)
  bcast_S1x40_S200000x40_0_1 : S1x40.BroadcastsInDim S200000x40 (![0, 1] : Fin 2 → Fin S200000x40.rank)
  bcast_S_S200000x40 : S_.BroadcastsInDim S200000x40 (![] : Fin 0 → Fin S200000x40.rank)
  bcast_S200000x1_S200000x40_0_1 : S200000x1.BroadcastsInDim S200000x40 (![0, 1] : Fin 2 → Fin S200000x40.rank)
  bcast_S24_S1x24_1 : S24.BroadcastsInDim S1x24 (![1] : Fin 1 → Fin S1x24.rank)
  bcast_S1x24_S200000x24_0_1 : S1x24.BroadcastsInDim S200000x24 (![0, 1] : Fin 2 → Fin S200000x24.rank)
  reducesTo_S200000x24_S200000_d1 : S200000x24.ReducesTo [1] S200000
  h_S_ : 0 < S_.numel
  bcast_S200000x1_S200000x24_0_1 : S200000x1.BroadcastsInDim S200000x24 (![0, 1] : Fin 2 → Fin S200000x24.rank)
  scatter_S200000_S6400000x1_S6400000_n_0_0_1_wf : ScatterDims.WF S200000 S6400000x1 S6400000 [] [0] [0] 1
  gather_S200000x16_S6400000x1_S6400000x16_1_0_n_n_0_1_116_wf : GatherDims.WF S200000x16 S6400000x1 S6400000x16 [1] [0] [] [0] [] 1 ![1, 16]
  scatter_S200000x16_S6400000x1_S6400000x16_1_0_0_1_wf : ScatterDims.WF S200000x16 S6400000x1 S6400000x16 [1] [0] [0] 1
  dot_S200000x16_S16x40_S200000x40_1_0_0_1_n_n_wf : DotDims.WF S200000x16 S16x40 S200000x40 [1] [0] [0] [1] [] []
  gather_S200000x40_S6400000x1_S6400000x40_1_0_n_n_0_1_140_wf : GatherDims.WF S200000x40 S6400000x1 S6400000x40 [1] [0] [] [0] [] 1 ![1, 40]
  scatter_S200000x40_S6400000x1_S6400000x40_1_0_0_1_wf : ScatterDims.WF S200000x40 S6400000x1 S6400000x40 [1] [0] [0] 1
  dot_S200000x40_S40x24_S200000x24_1_0_0_1_n_n_wf : DotDims.WF S200000x40 S40x24 S200000x24 [1] [0] [0] [1] [] []

variable [Facts₀]

def scatter_S200000_S6400000x1_S6400000_n_0_0_1 : ScatterDims S200000 S6400000x1 S6400000 where
  updateWindowDims := []
  insertedWindowDims := [0]
  scatterDimsToOperandDims := [0]
  indexVectorDim := 1
  wf := scatter_S200000_S6400000x1_S6400000_n_0_0_1_wf
def gather_S200000x16_S6400000x1_S6400000x16_1_0_n_n_0_1_116 : GatherDims S200000x16 S6400000x1 S6400000x16 where
  offsetDims := [1]
  collapsedSliceDims := [0]
  operandBatchingDims := []
  startIndicesBatchingDims := []
  startIndexMap := [0]
  indexVectorDim := 1
  sliceSizes := ![1, 16]
  wf := gather_S200000x16_S6400000x1_S6400000x16_1_0_n_n_0_1_116_wf
def scatter_S200000x16_S6400000x1_S6400000x16_1_0_0_1 : ScatterDims S200000x16 S6400000x1 S6400000x16 where
  updateWindowDims := [1]
  insertedWindowDims := [0]
  scatterDimsToOperandDims := [0]
  indexVectorDim := 1
  wf := scatter_S200000x16_S6400000x1_S6400000x16_1_0_0_1_wf
def dot_S200000x16_S16x40_S200000x40_1_0_0_1_n_n : DotDims S200000x16 S16x40 S200000x40 where
  lhsContracting := [1]
  rhsContracting := [0]
  lhsNonContracting := [0]
  rhsNonContracting := [1]
  lhsBatch := []
  rhsBatch := []
  wf := dot_S200000x16_S16x40_S200000x40_1_0_0_1_n_n_wf
def gather_S200000x40_S6400000x1_S6400000x40_1_0_n_n_0_1_140 : GatherDims S200000x40 S6400000x1 S6400000x40 where
  offsetDims := [1]
  collapsedSliceDims := [0]
  operandBatchingDims := []
  startIndicesBatchingDims := []
  startIndexMap := [0]
  indexVectorDim := 1
  sliceSizes := ![1, 40]
  wf := gather_S200000x40_S6400000x1_S6400000x40_1_0_n_n_0_1_140_wf
def scatter_S200000x40_S6400000x1_S6400000x40_1_0_0_1 : ScatterDims S200000x40 S6400000x1 S6400000x40 where
  updateWindowDims := [1]
  insertedWindowDims := [0]
  scatterDimsToOperandDims := [0]
  indexVectorDim := 1
  wf := scatter_S200000x40_S6400000x1_S6400000x40_1_0_0_1_wf
def dot_S200000x40_S40x24_S200000x24_1_0_0_1_n_n : DotDims S200000x40 S40x24 S200000x24 where
  lhsContracting := [1]
  rhsContracting := [0]
  lhsNonContracting := [0]
  rhsNonContracting := [1]
  lhsBatch := []
  rhsBatch := []
  wf := dot_S200000x40_S40x24_S200000x24_1_0_0_1_n_n_wf

class Facts : Prop extends Facts₀ where

variable [Facts]
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«108758_j17076789969651_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«108758_j17076789969651_2_alg».proof.Proof.LibKeepdims
import proofs.«108758_j17076789969651_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibSageLayers.lean ====
/-
  Two graph layers, read one node at a time on the extended reals.

  A mean-aggregating graph layer sends a node with aggregated neighbour features a and own features x to
  (a · Wl + x · Wr) + b: entry f is (∑ a d · Wl d f) + (∑ x d · Wr d f) + b f.  The first layer rectifies this (its maximum
  with zero); the second takes the log-softmax of the row: (z q − M) − log ∑ exp (z k − M), with M the row maximum.
  On the extended reals a change of float format is the identity, a matrix product accumulated into zero is the plain
  sum of products, and a reduction along the last axis is the sum or the supremum over that axis.  So a kernel's
  vector operations on a block of B nodes leave, at (p, f), the row function of node p: the lemmas below say so for
  any extents B, K, N.
-/
import Idealize.ShloMosaic.PureOps.Ideal.Laws
import Idealize.ShloMosaic.Lib.ValueIdx
import Idealize.ShloMosaic.Lib.ValueLayout
import Idealize.ShloMosaic.Lib.Pipeline.Value
import proofs.«108758_j17076789969651_2_alg».proof.Proof.LibInnerProducts
import proofs.«108758_j17076789969651_2_alg».proof.Proof.LibRowReduce

noncomputable section

namespace Cert.LibSageLayers

open Idealize.ShloMosaic Idealize.ShloMosaic.ValueIdx
open scoped BigOperators

/-! ## The row functions -/

/-- The layer before its activation, at one node: (a · Wl + x · Wr) + b, entry f, the sums associated in this order. -/
def pre {K N : ℕ} (a x : Fin K → EReal) (Wl Wr : Fin K → Fin N → EReal) (b : Fin N → EReal) (f : Fin N) : EReal :=
  ((∑ d : Fin K, a d * Wl d f) + ∑ d : Fin K, x d * Wr d f) + b f

/-- The rectified layer at one node: the maximum of the pre-activation with zero (the f32 word of zero). -/
def rectified {K N : ℕ} (a x : Fin K → EReal) (Wl Wr : Fin K → Fin N → EReal) (b : Fin N → EReal) (f : Fin N) : EReal :=
  max (pre a x Wl Wr b f) (Ideal.ofBits .f32 0x00000000#32)

/-- The log-softmax of one row: the row shifted by its maximum, minus the logarithm of the sum of the shifted row's
    exponentials. -/
def logSoftmax {n : ℕ} (z : Fin n → EReal) (q : Fin n) : EReal :=
  (z q - ⨆ k : Fin n, z k) - Ideal.log (∑ k : Fin n, Ideal.exp (z k - ⨆ j : Fin n, z j))

/-! ## A kernel's forms on a block of B nodes -/

/-- Two products into zero, added, plus the bias row [1, N] spread over the block: at (p, f) the pre-activation of
    node p.  The factors may be of any float format. -/
theorem pre_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    addf (addf (matmul D none y0 wl (constant (F := Ideal) ⟨2, ![B, N]⟩ .f32 0x00000000#32))
          (matmul D none y1 wr (constant (F := Ideal) ⟨2, ![B, N]⟩ .f32 0x00000000#32)))
        (broadcastTo ⟨2, ![B, N]⟩ (shapeCast ⟨2, ![1, N]⟩ b hc) hb) (ix2 p f)
      = pre (fun d => (y0 (ix2 p d) : EReal)) (fun d => (y1 (ix2 p d) : EReal))
          (fun d f => (wl (ix2 d f) : EReal)) (fun d f => (wr (ix2 d f) : EReal)) (fun f => b (ix2 0 f)) f := by
  show (_ + _) + _ = _
  rw [InnerProducts.matmul_zero_apply D hD none y0 wl p f, InnerProducts.matmul_zero_apply D hD none y1 wr p f,
    broadcastTo_1b_ab_apply _ hb p f, shapeCast_self b hc]
  rfl

/-- The rectified layer in a kernel's form: the pre-activation's maximum with a splat of the zero word. -/
theorem rectified_kernel_apply {B K N : ℕ} {φ₁ φ₂ φ₃ φ₄ : FTy}
    (D : DotDims ⟨2, ![B, K]⟩ ⟨2, ![K, N]⟩ ⟨2, ![B, N]⟩) (hD : D = DotDims.plain B K N)
    (y0 : FVec Ideal ⟨2, ![B, K]⟩ φ₁) (y1 : FVec Ideal ⟨2, ![B, K]⟩ φ₂)
    (wl : FVec Ideal ⟨2, ![K, N]⟩ φ₃) (wr : FVec Ideal ⟨2, ![K, N]⟩ φ₄) (b : FVec Ideal ⟨2, ![1, N]⟩ .f32)
    (hc : (⟨2, ![1, N]⟩ : Shape).ShapeCasts ⟨2, ![1, N]⟩) (hb : (⟨2, ![1, N]⟩ : Shape).Broadcasts ⟨2, ![B, N]⟩)
    (p : Fin B) (f : Fin N) :
    maximumf (addf (addf (matmul D none y0 wl (constant (F := Ideal) ⟨2, ![B, N]⟩ .f32 0x00000000#32))
            (matmul D none y1 wr (constant (F := Ideal) ⟨2, ![B, N]⟩ .f32 0x00000000#32)))
          (broadcastTo ⟨2, ![B, N]⟩ (shapeCast ⟨2, ![1, N]⟩ b hc) hb))
        (broadcast ⟨2, ![B, N]⟩ (Scalar.ofBits (F := Ideal) .f32 0x00000000#32)) (ix2 p f)
      = rectified (fun d => (y0 (ix2 p d) : EReal)) (fun d => (y1 (ix2 p d) : EReal))
          (fun d f => (wl (ix2 d f) : EReal)) (fun d f => (wr (ix2 d f) : EReal)) (fun f => b (ix2 0 f)) f := by
  show max (addf _ _ (ix2 p f)) (Ideal.ofBits .f32 0x00000000#32) = _
  rw [pre_kernel_apply D hD y0 y1 wl wr b hc hb p f]
  rfl

/-- A kernel's log-softmax along the rows of a [B, n] block: lane maximum and lane sum, each kept as a column and
    spread back over the row.  At (p, q) it is the log-softmax of row p. -/
theorem logSoftmax_kernel_apply {B n : ℕ} (z : FVec Ideal ⟨2, ![B, n]⟩ .f32)
    (h : (⟨2, ![B, n]⟩ : Shape).Reduces [1] ⟨1, ![B]⟩)
    (hc : (⟨1, ![B]⟩ : Shape).ShapeCasts ⟨2, ![B, 1]⟩) (hb : (⟨2, ![B, 1]⟩ : Shape).Broadcasts ⟨2, ![B, n]⟩)
    (p : Fin B) (q : Fin n) :
    subf (subf z (broadcastTo ⟨2, ![B, n]⟩ (shapeCast ⟨2, ![B, 1]⟩
            (multiReduction .maximumf [1] ⟨1, ![B]⟩ z 0xFF800000#32 h (.inl rfl) rfl) hc) hb))
        (broadcastTo ⟨2, ![B, n]⟩ (log (shapeCast ⟨2, ![B, 1]⟩
          (multiReduction .add [1] ⟨1, ![B]⟩
            (exp (subf z (broadcastTo ⟨2, ![B, n]⟩ (shapeCast ⟨2, ![B, 1]⟩
              (multiReduction .maximumf [1] ⟨1, ![B]⟩ z 0xFF800000#32 h (.inl rfl) rfl) hc) hb)))
            0x00000000#32 h (.inl rfl) rfl) hc)) hb) (ix2 p q)
      = logSoftmax (fun k => z (ix2 p k)) q := by
  -- the row maximum, spread back over the row, read at any entry of row p
  have hm : ∀ k : Fin n, broadcastTo ⟨2, ![B, n]⟩ (shapeCast ⟨2, ![B, 1]⟩
        (multiReduction .maximumf [1] ⟨1, ![B]⟩ z 0xFF800000#32 h (.inl rfl) rfl) hc) hb (ix2 p k)
        = ⨆ j : Fin n, z (ix2 p j) := fun k =>
    (LibRowReduce.column_apply _ hc hb p k).trans (LibRowReduce.rowMax_apply z h p)
  -- the exponential of the shifted row, at any entry of row p
  have he : ∀ k : Fin n, exp (subf z (broadcastTo ⟨2, ![B, n]⟩ (shapeCast ⟨2, ![B, 1]⟩
        (multiReduction .maximumf [1] ⟨1, ![B]⟩ z 0xFF800000#32 h (.inl rfl) rfl) hc) hb)) (ix2 p k)
        = Ideal.exp (z (ix2 p k) - ⨆ j : Fin n, z (ix2 p j)) := by
    intro k
    show Ideal.exp (z (ix2 p k) - _) = _
    rw [hm k]
  show (z (ix2 p q) - _) - _ = _
  rw [hm q, LibKeepdims.broadcastTo_a1_ab_apply _ hb p q]
  show _ - Ideal.log (shapeCast ⟨2, ![B, 1]⟩ _ hc (ix2 p (0 : Fin 1))) = _
  rw [LibKeepdims.shapeCast_a_a1_apply _ hc p 0, LibRowReduce.rowSum_apply _ h p]
  unfold logSoftmax
  exact congrArg (fun s => (z (ix2 p q) - ⨆ j : Fin n, z (ix2 p j)) - Ideal.log s) (Finset.sum_congr rfl fun k _ => he k)

/-! ## Congruence: the row functions depend on their rows entry by entry -/

theorem pre_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : pre a x Wl Wr b f = pre a' x' Wl' Wr' b' f := by
  obtain rfl : a = a' := funext ha
  obtain rfl : x = x' := funext hx
  obtain rfl : Wl = Wl' := funext fun d => funext (hl d)
  obtain rfl : Wr = Wr' := funext fun d => funext (hr d)
  obtain rfl : b = b' := funext hb
  rfl

theorem rectified_congr {K N : ℕ} {a a' x x' : Fin K → EReal} {Wl Wl' Wr Wr' : Fin K → Fin N → EReal} {b b' : Fin N → EReal}
    (ha : ∀ d, a d = a' d) (hx : ∀ d, x d = x' d) (hl : ∀ d f, Wl d f = Wl' d f) (hr : ∀ d f, Wr d f = Wr' d f)
    (hb : ∀ f, b f = b' f) (f : Fin N) : rectified a x Wl Wr b f = rectified a' x' Wl' Wr' b' f := by
  unfold rectified
  rw [pre_congr ha hx hl hr hb f]

theorem logSoftmax_congr {n : ℕ} {z z' : Fin n → EReal} (h : ∀ k, z k = z' k) (q : Fin n) :
    logSoftmax z q = logSoftmax z' q := by
  obtain rfl : z = z' := funext h
  rfl

/-! ## A bias vector as a row -/

/-- A bias vector [N] laid out as a row [1, N]. -/
def rowOf {N : ℕ} (b : FVec Ideal ⟨1, ![N]⟩ .f32) : FVec Ideal ⟨2, ![1, N]⟩ .f32 := fun j => b (ix1 (j 1))

theorem rowOf_apply {N : ℕ} (b : FVec Ideal ⟨1, ![N]⟩ .f32) (u : Fin 1) (f : Fin N) : rowOf b (ix2 u f) = b (ix1 f) := rfl

/-- A vector [N] recast to [1, N] is that row. -/
theorem shapeCast_eq_rowOf {N : ℕ} (b : FVec Ideal ⟨1, ![N]⟩ .f32) (h : (⟨1, ![N]⟩ : Shape).ShapeCasts ⟨2, ![1, N]⟩) :
    shapeCast ⟨2, ![1, N]⟩ b h = rowOf b := by
  funext j
  obtain ⟨u, f, rfl⟩ : ∃ (u : Fin 1) (f : Fin N), j = ix2 u f := ⟨j 0, j 1, eq_ix2 j⟩
  exact shapeCast_a_1a_apply b h u f

/-! ## The layers on whole arrays -/

/-- The rectified layer of every node: from the aggregated features A and the node features X (both [M, K]), the
    weights [K, N] and the bias row [1, N], the [M, N] array whose row r is the rectified layer of row r. -/
def hiddenArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  rectified (fun d => A (ix2 (j 0) d)) (fun d => X (ix2 (j 0) d)) (fun d f => Wl (ix2 d f)) (fun d f => Wr (ix2 d f))
    (fun f => b (ix2 0 f)) (j 1)

theorem hiddenArr_apply {M K N : ℕ} (A X : FVec Ideal ⟨2, ![M, K]⟩ .f32) (Wl Wr : FVec Ideal ⟨2, ![K, N]⟩ .f32)
    (b : FVec Ideal ⟨2, ![1, N]⟩ .f32) (r : Fin M) (f : Fin N) :
    hiddenArr A X Wl Wr b (ix2 r f)
      = rectified (fun d => A (ix2 r d)) (fun d => X (ix2 r d)) (fun d f => Wl (ix2 d f)) (fun d f => Wr (ix2 d f))
          (fun f => b (ix2 0 f)) f := rfl

/-- The log-softmax layer of every node: row r is the log-softmax of the layer's row r. -/
def outArr {M K N : ℕ} (A X : FVec Ideal ⟨2, ![M, K]⟩ .f32) (Wl Wr : FVec Ideal ⟨2, ![K, N]⟩ .f32)
    (b : FVec Ideal ⟨2, ![1, N]⟩ .f32) : FVec Ideal ⟨2, ![M, N]⟩ .f32 := fun j =>
  logSoftmax (pre (fun d => A (ix2 (j 0) d)) (fun d => X (ix2 (j 0) d)) (fun d f => Wl (ix2 d f)) (fun d f => Wr (ix2 d f))
    (fun f => b (ix2 0 f))) (j 1)

theorem outArr_apply {M K N : ℕ} (A X : FVec Ideal ⟨2, ![M, K]⟩ .f32) (Wl Wr : FVec Ideal ⟨2, ![K, N]⟩ .f32)
    (b : FVec Ideal ⟨2, ![1, N]⟩ .f32) (r : Fin M) (q : Fin N) :
    outArr A X Wl Wr b (ix2 r q)
      = logSoftmax (pre (fun d => A (ix2 r d)) (fun d => X (ix2 r d)) (fun d f => Wl (ix2 d f)) (fun d f => Wr (ix2 d f))
          (fun f => b (ix2 0 f))) q := rfl

end Cert.LibSageLayers

end
-- ==== Proof.KernelBlocks.lean ====
/-
  The two dense regions of the graph network, block by block.

  Each region runs over 20 grid points; point t stages rows 10000·t … 10000·t + 9999 of the aggregated features and
  of the node features, the whole weight matrices and the bias row, and writes back the same rows of its result.  A
  row of the result depends only on the same row of the two feature arrays, so what point t writes back is block t of
  ONE whole-array function of the arrays the region finds — the rectified layer for the first region, the
  log-softmax layer for the second — and the twenty blocks tile the result array.
-/
import proofs.«108758_j17076789969651_2_alg».proof.Proof.Gen.KernelIdeal.Frame
import proofs.«108758_j17076789969651_2_alg».proof.Proof.LibSageLayers
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.LibSageLayers

/-- the offsets of a whole-block access are zero -/
theorem zeroOffsets : (![0, 0] : Fin 2 → Nat) = fun _ => 0 := funext fun a => by fin_cases a <;> rfl

/-! ## The bodies' stored values at an index -/

/-- The first region's stored block at (p, f): the rectified layer of row p of the two staged feature blocks. -/
theorem stored0_apply (x0 x1 : Vec Ideal S10000x16 .f32) (x2 x4 : Vec Ideal S16x40 .f32) (x3 : Vec Ideal S1x40 .f32)
    (p : Fin 10000) (f : Fin 40) :
    k0_pay1 (F := Ideal) x0 x1 x2 x4 x3 (ix2 p f)
      = rectified (fun d => x0 (ix2 p d)) (fun d => x1 (ix2 p d)) (fun d f => x2 (ix2 d f)) (fun d f => x4 (ix2 d f))
          (fun f => x3 (ix2 0 f)) f := by
  unfold k0_pay1
  refine (rectified_kernel_apply dot_S10000x16_S16x40_S10000x40_1_0_0_1_n_n rfl
    (truncf .bf16 (shapeCast S10000x16 x0 shapeCasts_S10000x16_S10000x16) bitsLt_bf16_f32) (truncf .bf16 x1 bitsLt_bf16_f32)
    (truncf .bf16 x2 bitsLt_bf16_f32) (truncf .bf16 x4 bitsLt_bf16_f32) x3 shapeCasts_S1x40_S1x40 broadcasts_S1x40_S10000x40 p f).trans ?_
  rw [shapeCast_self x0 shapeCasts_S10000x16_S10000x16]
  rfl

/-- The second region's stored block at (p, q): the log-softmax of the layer's row p. -/
theorem stored1_apply (x0 x1 : Vec Ideal S10000x40 .f32) (x2 x4 : Vec Ideal S40x24 .f32) (x3 : Vec Ideal S1x24 .f32)
    (p : Fin 10000) (q : Fin 24) :
    k1_pay1 (F := Ideal) x0 x1 x2 x4 x3 (ix2 p q)
      = logSoftmax (pre (fun d => x0 (ix2 p d)) (fun d => x1 (ix2 p d)) (fun d f => x2 (ix2 d f)) (fun d f => x4 (ix2 d f))
          (fun f => x3 (ix2 0 f))) q := by
  unfold k1_pay1
  refine (logSoftmax_kernel_apply _ reduces_S10000x24_S10000 shapeCasts_S10000_S10000x1 broadcasts_S10000x1_S10000x24 p q).trans ?_
  refine logSoftmax_congr (fun k => ?_) q
  refine (pre_kernel_apply dot_S10000x40_S40x24_S10000x24_1_0_0_1_n_n rfl
    (truncf .bf16 (shapeCast S10000x40 x0 shapeCasts_S10000x40_S10000x40) bitsLt_bf16_f32)
    (truncf .bf16 (shapeCast S10000x40 x1 shapeCasts_S10000x40_S10000x40) bitsLt_bf16_f32)
    (truncf .bf16 x2 bitsLt_bf16_f32) (truncf .bf16 x4 bitsLt_bf16_f32) x3 shapeCasts_S1x24_S1x24 broadcasts_S1x24_S10000x24 p k).trans ?_
  rw [shapeCast_self x0 shapeCasts_S10000x40_S10000x40, shapeCast_self x1 shapeCasts_S10000x40_S10000x40]
  rfl

/-! ## Region 0: rows 10000·t … of the arrays, block by block -/

section Region0

variable (V : (c : Dev nD) → (b : Ref sig .tc) → Buf (Elt Ideal) ((c : Thread nD τ).loc b))

/-- The printed index maps over the grid: the three row-blocked windows sit at block row t, column block 0; the weight
    and bias windows at block (0, 0). -/
theorem blockIndex0 : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Row p of the aggregated-features block at point t is row 10000·t + p of the array. -/
theorem read0_0 (c : Dev nD) (t : Fin cfg0.N) (p : Fin 10000) (d : Fin 16) (r : Fin 200000) (hr : r.val = t.val * 10000 + p.val) :
    iblk0 V c 0 t (ix2 p d) = V c main_v27 (ix2 r d) := by
  obtain ⟨-, -, e0, e1, -⟩ := blockIndex0 t
  show V c main_v27 (((cfg0.win 0).blk t).view.emb (ix2 p d)) = V c main_v27 (ix2 r d)
  refine congrArg (V c main_v27) (funext fun a => Fin.ext ?_)
  match a with
  | ⟨0, _⟩ => show win0_0.index t (0 : Fin 2) * 10000 + 1 * p.val = r.val; omega
  | ⟨1, _⟩ => show win0_0.index t (1 : Fin 2) * 16 + 1 * d.val = d.val; omega

/-- Row p of the node-features block at point t is row 10000·t + p of the array. -/
theorem read0_1 (c : Dev nD) (t : Fin cfg0.N) (p : Fin 10000) (d : Fin 16) (r : Fin 200000) (hr : r.val = t.val * 10000 + p.val) :
    iblk0 V c 1 t (ix2 p d) = V c main_arg0 (ix2 r d) := by
  obtain ⟨-, -, -, -, e0, e1, -⟩ := blockIndex0 t
  show V c main_arg0 (((cfg0.win 1).blk t).view.emb (ix2 p d)) = V c main_arg0 (ix2 r d)
  refine congrArg (V c main_arg0) (funext fun a => Fin.ext ?_)
  match a with
  | ⟨0, _⟩ => show win0_1.index t (0 : Fin 2) * 10000 + 1 * p.val = r.val; omega
  | ⟨1, _⟩ => show win0_1.index t (1 : Fin 2) * 16 + 1 * d.val = d.val; omega

/-- The weight and bias windows stage their whole arrays at every point. -/
theorem read0_2 (c : Dev nD) (t : Fin cfg0.N) (d : Fin 16) (f : Fin 40) : iblk0 V c 2 t (ix2 d f) = V c main_arg2 (ix2 d f) := by
  obtain ⟨-, -, -, -, -, -, e0, e1, -⟩ := blockIndex0 t
  show V c main_arg2 (((cfg0.win 2).blk t).view.emb (ix2 d f)) = V c main_arg2 (ix2 d f)
  refine congrArg (V c main_arg2) (funext fun a => Fin.ext ?_)
  match a with
  | ⟨0, _⟩ => show win0_2.index t (0 : Fin 2) * 16 + 1 * d.val = d.val; omega
  | ⟨1, _⟩ => show win0_2.index t (1 : Fin 2) * 40 + 1 * f.val = f.val; omega

theorem read0_3 (c : Dev nD) (t : Fin cfg0.N) (f : Fin 40) : iblk0 V c 3 t (ix2 0 f) = V c main_v28 (ix2 0 f) := by
  obtain ⟨-, -, -, -, -, -, -, -, e0, e1, -⟩ := blockIndex0 t
  show V c main_v28 (((cfg0.win 3).blk t).view.emb (ix2 0 f)) = V c main_v28 (ix2 0 f)
  refine congrArg (V c main_v28) (funext fun a => Fin.ext ?_)
  match a with
  | ⟨0, _⟩ => show win0_3.index t (0 : Fin 2) * 1 + 1 * 0 = 0; omega
  | ⟨1, _⟩ => show win0_3.index t (1 : Fin 2) * 40 + 1 * f.val = f.val; omega

theorem read0_4 (c : Dev nD) (t : Fin cfg0.N) (d : Fin 16) (f : Fin 40) : iblk0 V c 4 t (ix2 d f) = V c main_arg4 (ix2 d f) := by
  obtain ⟨-, -, -, -, -, -, -, -, -, -, e0, e1⟩ := blockIndex0 t
  show V c main_arg4 (((cfg0.win 4).blk t).view.emb (ix2 d f)) = V c main_arg4 (ix2 d f)
  refine congrArg (V c main_arg4) (funext fun a => Fin.ext ?_)
  match a with
  | ⟨0, _⟩ => show win0_4.index t (0 : Fin 2) * 16 + 1 * d.val = d.val; omega
  | ⟨1, _⟩ => show win0_4.index t (1 : Fin 2) * 40 + 1 * f.val = f.val; omega

/-- The rectified layer of the arrays the region finds. -/
abbrev hidden (c : Dev nD) : FVec Ideal S200000x40 .f32 :=
  hiddenArr (M := 200000) (K := 16) (N := 40) (V c main_v27) (V c main_arg0) (V c main_arg2) (V c main_arg4) (V c main_v28)

/-- What point t writes back is block t of the rectified layer of the arrays the region finds. -/
theorem flushed0_eq (c : Dev nD) (t : Fin cfg0.N) :
    (dat0 V c).flushed 5 t = ((cfg0.win 5).blk t).view.read (Elt Ideal) (hidden V c) := by
  show (cfg0.win 5).cut (grid0.coords t) ((dat0 V c).after 5 t) = _
  rw [after0_5]
  unfold out0_5
  rw [View.canon_unit_zero zeroOffsets]
  simp only [View.ld_unit_zero (S := S10000x16) zeroOffsets, View.ld_unit_zero (S := S16x40) zeroOffsets,
    View.ld_unit_zero (S := S1x40) zeroOffsets]
  obtain ⟨e0, e1, -⟩ := blockIndex0 t
  funext j
  obtain ⟨p, f, rfl⟩ : ∃ (p : Fin 10000) (f : Fin 40), j = ix2 p f := ⟨j 0, j 1, eq_ix2 j⟩
  have ht : t.val < 20 := lt_of_lt_of_eq t.isLt (show cfg0.N = 20 from N_0)
  obtain ⟨r, hr⟩ : ∃ r : Fin 200000, r.val = t.val * 10000 + p.val := ⟨⟨t.val * 10000 + p.val, by have := p.isLt; omega⟩, rfl⟩
  have hemb : ((cfg0.win 5).blk t).view.emb (ix2 p f) = ix2 r f := by
    funext a; apply Fin.ext
    match a with
    | ⟨0, _⟩ => show win0_5.index t (0 : Fin 2) * 10000 + 1 * p.val = r.val; omega
    | ⟨1, _⟩ => show win0_5.index t (1 : Fin 2) * 40 + 1 * f.val = f.val; omega
  show k0_pay1 (F := Ideal) (iblk0 V c 0 t) (iblk0 V c 1 t) (iblk0 V c 2 t) (iblk0 V c 4 t) (iblk0 V c 3 t) (ix2 p f)
    = hidden V c (((cfg0.win 5).blk t).view.emb (ix2 p f))
  rw [hemb]
  refine (stored0_apply (iblk0 V c 0 t) (iblk0 V c 1 t) (iblk0 V c 2 t) (iblk0 V c 4 t) (iblk0 V c 3 t) p f).trans ?_
  refine (rectified_congr (fun d => read0_0 V c t p d r hr) (fun d => read0_1 V c t p d r hr) (fun d f => read0_2 V c t d f)
    (fun d f => read0_4 V c t d f) (fun f => read0_3 V c t f) f).trans ?_
  exact (hiddenArr_apply _ _ _ _ _ _ f).symm

/-- An index of the result array is in point t's block iff its row is one of rows 10000·t … 10000·t + 9999. -/
theorem mem_block0 (t : Fin cfg0.N) (i : S200000x40.Idx) :
    i ∈ ((cfg0.win 5).blk t).view.set ↔ ∀ a : Fin 2, win0_5.index t a * S10000x40.size a ≤ (i a).val ∧ (i a).val < win0_5.index t a * S10000x40.size a + S10000x40.size a := by
  show i ∈ ((View.whole main_v29).slice (win0_5.rect t)).set ↔ _
  rw [View.set_slice_whole, Rect.mem_set_unit]
  exact Iff.rfl

/-- Every index of the result array is in the block of the point its row falls in. -/
theorem cover0 (i : S200000x40.Idx) : ∃ t : Fin cfg0.N, (cfg0.win 5).flush t = true ∧ i ∈ ((cfg0.win 5).blk t).view.set := by
  have hi0 : (i 0).val < 200000 := (i 0).isLt
  have hi1 : (i 1).val < 40 := (i 1).isLt
  have hN : cfg0.N = 20 := N_0
  let t : Fin cfg0.N := ⟨(i 0).val / 10000, lt_of_lt_of_eq (by omega : (i 0).val / 10000 < 20) hN.symm⟩
  obtain ⟨e0, e1, -⟩ := blockIndex0 t
  have htv : t.val = (i 0).val / 10000 := rfl
  refine ⟨t, flush0_5 t, ?_⟩
  rw [mem_block0]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 40 ≤ (i 1).val ∧ (i 1).val < win0_5.index t (1 : Fin 2) * 40 + 40; omega

/-- The result array after the region: the rectified layer of the arrays the region finds. -/
theorem final0 (c : Dev nD) : (dat0 V c).arrAt 5 cfg0.N = hidden V c :=
  (dat0 V c).arrAt_eq_of_cover 5 (hidden V c) (fun t _ => flushed0_eq V c t) cover0

end Region0

/-! ## Region 1: the same rows of the second layer's arrays -/

section Region1

variable (V : (c : Dev nD) → (b : Ref sig .tc) → Buf (Elt Ideal) ((c : Thread nD τ).loc b))

/-- The printed index maps over the grid: the three row-blocked windows sit at block row t, column block 0; the weight
    and bias windows at block (0, 0). -/
theorem blockIndex1 : ∀ t : Fin cfg1.N,
    win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row p of the aggregated block at point t is row 10000·t + p of the aggregated array. -/
theorem read1_0 (c : Dev nD) (t : Fin cfg1.N) (p : Fin 10000) (d : Fin 40) (r : Fin 200000) (hr : r.val = t.val * 10000 + p.val) :
    iblk1 V c 0 t (ix2 p d) = V c main_v42 (ix2 r d) := by
  have e := blockIndex1 t
  show V c main_v42 (((cfg1.win 0).blk t).view.emb (ix2 p d)) = V c main_v42 (ix2 r d)
  refine congrArg (V c main_v42) (funext fun a => Fin.ext ?_)
  match a with
  | ⟨0, _⟩ => show win1_0.index t (0 : Fin 2) * 10000 + 1 * p.val = r.val; omega
  | ⟨1, _⟩ => show win1_0.index t (1 : Fin 2) * 40 + 1 * d.val = d.val; omega

/-- Row p of the first layer's block at point t is row 10000·t + p of the first layer's result. -/
theorem read1_1 (c : Dev nD) (t : Fin cfg1.N) (p : Fin 10000) (d : Fin 40) (r : Fin 200000) (hr : r.val = t.val * 10000 + p.val) :
    iblk1 V c 1 t (ix2 p d) = V c main_v29 (ix2 r d) := by
  have e := blockIndex1 t
  show V c main_v29 (((cfg1.win 1).blk t).view.emb (ix2 p d)) = V c main_v29 (ix2 r d)
  refine congrArg (V c main_v29) (funext fun a => Fin.ext ?_)
  match a with
  | ⟨0, _⟩ => show win1_1.index t (0 : Fin 2) * 10000 + 1 * p.val = r.val; omega
  | ⟨1, _⟩ => show win1_1.index t (1 : Fin 2) * 40 + 1 * d.val = d.val; omega

/-- The weight and bias windows stage their whole arrays at every point. -/
theorem read1_2 (c : Dev nD) (t : Fin cfg1.N) (d : Fin 40) (f : Fin 24) : iblk1 V c 2 t (ix2 d f) = V c main_arg5 (ix2 d f) := by
  have e := blockIndex1 t
  show V c main_arg5 (((cfg1.win 2).blk t).view.emb (ix2 d f)) = V c main_arg5 (ix2 d f)
  refine congrArg (V c main_arg5) (funext fun a => Fin.ext ?_)
  match a with
  | ⟨0, _⟩ => show win1_2.index t (0 : Fin 2) * 40 + 1 * d.val = d.val; omega
  | ⟨1, _⟩ => show win1_2.index t (1 : Fin 2) * 24 + 1 * f.val = f.val; omega

theorem read1_3 (c : Dev nD) (t : Fin cfg1.N) (f : Fin 24) : iblk1 V c 3 t (ix2 0 f) = V c main_v43 (ix2 0 f) := by
  have e := blockIndex1 t
  show V c main_v43 (((cfg1.win 3).blk t).view.emb (ix2 0 f)) = V c main_v43 (ix2 0 f)
  refine congrArg (V c main_v43) (funext fun a => Fin.ext ?_)
  match a with
  | ⟨0, _⟩ => show win1_3.index t (0 : Fin 2) * 1 + 1 * 0 = 0; omega
  | ⟨1, _⟩ => show win1_3.index t (1 : Fin 2) * 24 + 1 * f.val = f.val; omega

theorem read1_4 (c : Dev nD) (t : Fin cfg1.N) (d : Fin 40) (f : Fin 24) : iblk1 V c 4 t (ix2 d f) = V c main_arg7 (ix2 d f) := by
  have e := blockIndex1 t
  show V c main_arg7 (((cfg1.win 4).blk t).view.emb (ix2 d f)) = V c main_arg7 (ix2 d f)
  refine congrArg (V c main_arg7) (funext fun a => Fin.ext ?_)
  match a with
  | ⟨0, _⟩ => show win1_4.index t (0 : Fin 2) * 40 + 1 * d.val = d.val; omega
  | ⟨1, _⟩ => show win1_4.index t (1 : Fin 2) * 24 + 1 * f.val = f.val; omega

/-- The log-softmax layer of the arrays the region finds. -/
abbrev outLayer (c : Dev nD) : FVec Ideal S200000x24 .f32 :=
  outArr (M := 200000) (K := 40) (N := 24) (V c main_v42) (V c main_v29) (V c main_arg5) (V c main_arg7) (V c main_v43)

/-- What point t writes back is block t of the log-softmax layer of the arrays the region finds. -/
theorem flushed1_eq (c : Dev nD) (t : Fin cfg1.N) :
    (dat1 V c).flushed 5 t = ((cfg1.win 5).blk t).view.read (Elt Ideal) (outLayer V c) := by
  show (cfg1.win 5).cut (grid1.coords t) ((dat1 V c).after 5 t) = _
  rw [after1_5]
  unfold out1_5
  rw [View.canon_unit_zero zeroOffsets]
  simp only [View.ld_unit_zero (S := S10000x40) zeroOffsets, View.ld_unit_zero (S := S40x24) zeroOffsets,
    View.ld_unit_zero (S := S1x24) zeroOffsets]
  obtain ⟨e0, e1, -⟩ := blockIndex1 t
  funext j
  obtain ⟨p, q, rfl⟩ : ∃ (p : Fin 10000) (q : Fin 24), j = ix2 p q := ⟨j 0, j 1, eq_ix2 j⟩
  have ht : t.val < 20 := lt_of_lt_of_eq t.isLt (show cfg1.N = 20 from N_1)
  obtain ⟨r, hr⟩ : ∃ r : Fin 200000, r.val = t.val * 10000 + p.val := ⟨⟨t.val * 10000 + p.val, by have := p.isLt; omega⟩, rfl⟩
  have hemb : ((cfg1.win 5).blk t).view.emb (ix2 p q) = ix2 r q := by
    funext a; apply Fin.ext
    match a with
    | ⟨0, _⟩ => show win1_5.index t (0 : Fin 2) * 10000 + 1 * p.val = r.val; omega
    | ⟨1, _⟩ => show win1_5.index t (1 : Fin 2) * 24 + 1 * q.val = q.val; omega
  show k1_pay1 (F := Ideal) (iblk1 V c 0 t) (iblk1 V c 1 t) (iblk1 V c 2 t) (iblk1 V c 4 t) (iblk1 V c 3 t) (ix2 p q)
    = outLayer V c (((cfg1.win 5).blk t).view.emb (ix2 p q))
  rw [hemb]
  refine (stored1_apply (iblk1 V c 0 t) (iblk1 V c 1 t) (iblk1 V c 2 t) (iblk1 V c 4 t) (iblk1 V c 3 t) p q).trans ?_
  refine (logSoftmax_congr (fun k => pre_congr (fun d => read1_0 V c t p d r hr) (fun d => read1_1 V c t p d r hr)
    (fun d f => read1_2 V c t d f) (fun d f => read1_4 V c t d f) (fun f => read1_3 V c t f) k) q).trans ?_
  exact (outArr_apply _ _ _ _ _ _ q).symm

/-- An index of the result array is in point t's block iff its row is one of rows 10000·t … 10000·t + 9999. -/
theorem mem_block1 (t : Fin cfg1.N) (i : S200000x24.Idx) :
    i ∈ ((cfg1.win 5).blk t).view.set ↔ ∀ a : Fin 2, win1_5.index t a * S10000x24.size a ≤ (i a).val ∧ (i a).val < win1_5.index t a * S10000x24.size a + S10000x24.size a := by
  show i ∈ ((View.whole main_v44).slice (win1_5.rect t)).set ↔ _
  rw [View.set_slice_whole, Rect.mem_set_unit]
  exact Iff.rfl

/-- Every index of the result array is in the block of the point its row falls in. -/
theorem cover1 (i : S200000x24.Idx) : ∃ t : Fin cfg1.N, (cfg1.win 5).flush t = true ∧ i ∈ ((cfg1.win 5).blk t).view.set := by
  have hi0 : (i 0).val < 200000 := (i 0).isLt
  have hi1 : (i 1).val < 24 := (i 1).isLt
  have hN : cfg1.N = 20 := N_1
  let t : Fin cfg1.N := ⟨(i 0).val / 10000, lt_of_lt_of_eq (by omega : (i 0).val / 10000 < 20) hN.symm⟩
  obtain ⟨e0, e1, -⟩ := blockIndex1 t
  have htv : t.val = (i 0).val / 10000 := rfl
  refine ⟨t, flush1_5 t, ?_⟩
  rw [mem_block1]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 24 ≤ (i 1).val ∧ (i 1).val < win1_5.index t (1 : Fin 2) * 24 + 24; omega

/-- The result array after the region: the log-softmax layer of the arrays the region finds. -/
theorem final1 (c : Dev nD) : (dat1 V c).arrAt 5 cfg1.N = outLayer V c :=
  (dat1 V c).arrAt_eq_of_cover 5 (outLayer V c) (fun t _ => flushed1_eq V c t) cover1

end Region1

end Cert.KernelIdeal.Blocks

end
-- ==== Proof.RefValue.lean ====
/-
  The reference, layer by layer.

  Read one operation at a time, the reference's result is the log-softmax layer of (the second aggregation of H, H)
  where H is the rectified layer of (the first aggregation of x, x): the same two whole-array functions the kernel's two
  regions compute.  The reference adds the bias before the second product, the kernel after it; addition on the
  extended reals is commutative and associative, so the two sums agree with no condition on the entries.  The
  reference takes the row maximum once more against −∞, which changes nothing.  The aggregations themselves (a gather
  along the edge list's first row, a scatter-add along its second, a product with the guarded reciprocal of the
  in-degree) are carried as they stand and never opened.
-/
import proofs.«108758_j17076789969651_2_alg».proof.Proof.RefRead
import proofs.«108758_j17076789969651_2_alg».proof.Proof.LibSageLayers
import proofs.«108758_j17076789969651_2_alg».proof.Proof.LibExtremeReduce
import proofs.«108758_j17076789969651_2_alg».proof.Proof.LibRowReduce

set_option maxRecDepth 16384

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open Cert.LibSageLayers
open scoped BigOperators

/-- The second aggregation, of any [200000, 40] array h along the edge list x1: gather h's rows at the sources, add them
    up at the targets, scale each row by the guarded reciprocal of its in-degree. -/
def agg40 (h : FVec Ideal S200000x40 .f32) (x1 : (⟨S2x6400000, .i32⟩ : BufTy).Contents (Elt Ideal)) :
    FVec Ideal S200000x40 .f32 :=
  mulf (Host.scatterAdd (F := Ideal) (φ := .f32) scatter_S200000x40_S6400000x1_S6400000x40_1_0_0_1 (val_main_v42 (F := Ideal))
      (val_main_v43 (F := Ideal) x1) (Host.gather gather_S200000x40_S6400000x1_S6400000x40_1_0_n_n_0_1_140 h (val_main_v40 (F := Ideal) x1)))
    (val_main_v46 (F := Ideal) x1)

/-- The reference's second aggregation is that function of its rectified first layer. -/
theorem v47_eq (x0 : (⟨S200000x16, .f32⟩ : BufTy).Contents (Elt Ideal)) (x1 : (⟨S2x6400000, .i32⟩ : BufTy).Contents (Elt Ideal))
    (x2 : (⟨S16x40, .f32⟩ : BufTy).Contents (Elt Ideal)) (x3 : (⟨S40, .f32⟩ : BufTy).Contents (Elt Ideal))
    (x4 : (⟨S16x40, .f32⟩ : BufTy).Contents (Elt Ideal)) :
    val_main_v47 (F := Ideal) x0 x1 x2 x3 x4 = agg40 (val_main_v34 (F := Ideal) x0 x1 x2 x3 x4) x1 := rfl

/-! ## The first layer -/

/-- The reference's rectified first layer is the rectified layer of (the first aggregation, x). -/
theorem hidden_eq (x0 : (⟨S200000x16, .f32⟩ : BufTy).Contents (Elt Ideal)) (x1 : (⟨S2x6400000, .i32⟩ : BufTy).Contents (Elt Ideal))
    (x2 : (⟨S16x40, .f32⟩ : BufTy).Contents (Elt Ideal)) (x3 : (⟨S40, .f32⟩ : BufTy).Contents (Elt Ideal))
    (x4 : (⟨S16x40, .f32⟩ : BufTy).Contents (Elt Ideal)) :
    val_main_v34 (F := Ideal) x0 x1 x2 x3 x4
      = hiddenArr (M := 200000) (K := 16) (N := 40) (val_main_v27 (F := Ideal) x0 x1) x0 x2 x4 (rowOf x3) := by
  funext i
  obtain ⟨r, f, rfl⟩ : ∃ (r : Fin 200000) (f : Fin 40), i = ix2 r f := ⟨i 0, i 1, eq_ix2 i⟩
  have el : ∀ k : Fin 16, lidx_main_v28 (ix2 r f) k = ix2 r k := fun k =>
    funext fun a => Fin.ext (by match a with | ⟨0, _⟩ => rfl | ⟨1, _⟩ => rfl)
  have er : ∀ k : Fin 16, ridx_main_v28 (ix2 r f) k = ix2 k f := fun k =>
    funext fun a => Fin.ext (by match a with | ⟨0, _⟩ => rfl | ⟨1, _⟩ => rfl)
  have el' : ∀ k : Fin 16, lidx_main_v32 (ix2 r f) k = ix2 r k := fun k =>
    funext fun a => Fin.ext (by match a with | ⟨0, _⟩ => rfl | ⟨1, _⟩ => rfl)
  have er' : ∀ k : Fin 16, ridx_main_v32 (ix2 r f) k = ix2 k f := fun k =>
    funext fun a => Fin.ext (by match a with | ⟨0, _⟩ => rfl | ⟨1, _⟩ => rfl)
  have eb : idx_main_v29 (idx_main_v30 (ix2 r f)) = ix1 f :=
    funext fun a => Fin.ext (by match a with | ⟨0, _⟩ => rfl)
  rw [val_main_v34_apply, val_main_v33_apply, val_main_v31_apply, val_main_v28_apply, val_main_v32_apply, val_main_v30_apply,
    val_main_v29_apply, val_main_call1_v0_apply, val_main_call1_cst_apply, hiddenArr_apply]
  simp only [el, er, el', er', eb]
  unfold rectified pre
  show max ((_ + _) + _) _ = max ((_ + _) + _) _
  rw [add_right_comm]
  rfl

/-! ## The second layer -/

/-- The second layer before its log-softmax, at (r, k): the pre-activation of row r of (the second aggregation, H). -/
theorem pre53_apply (x0 : (⟨S200000x16, .f32⟩ : BufTy).Contents (Elt Ideal)) (x1 : (⟨S2x6400000, .i32⟩ : BufTy).Contents (Elt Ideal))
    (x2 : (⟨S16x40, .f32⟩ : BufTy).Contents (Elt Ideal)) (x3 : (⟨S40, .f32⟩ : BufTy).Contents (Elt Ideal))
    (x4 : (⟨S16x40, .f32⟩ : BufTy).Contents (Elt Ideal)) (x5 : (⟨S40x24, .f32⟩ : BufTy).Contents (Elt Ideal))
    (x6 : (⟨S24, .f32⟩ : BufTy).Contents (Elt Ideal)) (x7 : (⟨S40x24, .f32⟩ : BufTy).Contents (Elt Ideal)) (r : Fin 200000) (k : Fin 24) :
    val_main_v53 (F := Ideal) x0 x1 x2 x3 x4 x5 x6 x7 (ix2 r k)
      = pre (fun d => val_main_v47 (F := Ideal) x0 x1 x2 x3 x4 (ix2 r d)) (fun d => val_main_v34 (F := Ideal) x0 x1 x2 x3 x4 (ix2 r d))
          (fun d f => x5 (ix2 d f)) (fun d f => x7 (ix2 d f)) (fun f => rowOf x6 (ix2 0 f)) k := by
  have el : ∀ d : Fin 40, lidx_main_v48 (ix2 r k) d = ix2 r d := fun d =>
    funext fun a => Fin.ext (by match a with | ⟨0, _⟩ => rfl | ⟨1, _⟩ => rfl)
  have er : ∀ d : Fin 40, ridx_main_v48 (ix2 r k) d = ix2 d k := fun d =>
    funext fun a => Fin.ext (by match a with | ⟨0, _⟩ => rfl | ⟨1, _⟩ => rfl)
  have el' : ∀ d : Fin 40, lidx_main_v52 (ix2 r k) d = ix2 r d := fun d =>
    funext fun a => Fin.ext (by match a with | ⟨0, _⟩ => rfl | ⟨1, _⟩ => rfl)
  have er' : ∀ d : Fin 40, ridx_main_v52 (ix2 r k) d = ix2 d k := fun d =>
    funext fun a => Fin.ext (by match a with | ⟨0, _⟩ => rfl | ⟨1, _⟩ => rfl)
  have eb : idx_main_v49 (idx_main_v50 (ix2 r k)) = ix1 k :=
    funext fun a => Fin.ext (by match a with | ⟨0, _⟩ => rfl)
  rw [val_main_v53_apply, val_main_v51_apply, val_main_v48_apply, val_main_v52_apply, val_main_v50_apply, val_main_v49_apply]
  simp only [el, er, el', er', eb]
  unfold pre
  show (_ + _) + _ = (_ + _) + _
  rw [add_right_comm]
  rfl

/-- The reference's row maximum at row r: the supremum of the second layer's row r. -/
theorem rowMax_apply (x0 : (⟨S200000x16, .f32⟩ : BufTy).Contents (Elt Ideal)) (x1 : (⟨S2x6400000, .i32⟩ : BufTy).Contents (Elt Ideal))
    (x2 : (⟨S16x40, .f32⟩ : BufTy).Contents (Elt Ideal)) (x3 : (⟨S40, .f32⟩ : BufTy).Contents (Elt Ideal))
    (x4 : (⟨S16x40, .f32⟩ : BufTy).Contents (Elt Ideal)) (x5 : (⟨S40x24, .f32⟩ : BufTy).Contents (Elt Ideal))
    (x6 : (⟨S24, .f32⟩ : BufTy).Contents (Elt Ideal)) (x7 : (⟨S40x24, .f32⟩ : BufTy).Contents (Elt Ideal)) (r : Fin 200000) :
    val_main_call2_v0 (F := Ideal) x0 x1 x2 x3 x4 x5 x6 x7 (ix1 r) = ⨆ k : Fin 24, val_main_v53 (F := Ideal) x0 x1 x2 x3 x4 x5 x6 x7 (ix2 r k) := by
  unfold val_main_call2_v0 val_main_call2_cst
  generalize val_main_v53 (F := Ideal) x0 x1 x2 x3 x4 x5 x6 x7 = y
  refine (ExtremeReduce.hostReduce_max_single y reducesTo_S200000x24_S200000_d1 (by decide) h_S_ (ix1 r)).trans ?_
  exact iSup_congr fun k => congrArg y (LibRowReduce.lift_row _ r k)

/-- The reference's result is the log-softmax layer of (the second aggregation of H, H), H its rectified first layer. -/
theorem out_eq (x0 : (⟨S200000x16, .f32⟩ : BufTy).Contents (Elt Ideal)) (x1 : (⟨S2x6400000, .i32⟩ : BufTy).Contents (Elt Ideal))
    (x2 : (⟨S16x40, .f32⟩ : BufTy).Contents (Elt Ideal)) (x3 : (⟨S40, .f32⟩ : BufTy).Contents (Elt Ideal))
    (x4 : (⟨S16x40, .f32⟩ : BufTy).Contents (Elt Ideal)) (x5 : (⟨S40x24, .f32⟩ : BufTy).Contents (Elt Ideal))
    (x6 : (⟨S24, .f32⟩ : BufTy).Contents (Elt Ideal)) (x7 : (⟨S40x24, .f32⟩ : BufTy).Contents (Elt Ideal)) :
    val_main_v54 (F := Ideal) x0 x1 x2 x3 x4 x5 x6 x7
      = outArr (M := 200000) (K := 40) (N := 24) (val_main_v47 (F := Ideal) x0 x1 x2 x3 x4) (val_main_v34 (F := Ideal) x0 x1 x2 x3 x4)
          x5 x7 (rowOf x6) := by
  funext i
  obtain ⟨r, q, rfl⟩ : ∃ (r : Fin 200000) (q : Fin 24), i = ix2 r q := ⟨i 0, i 1, eq_ix2 i⟩
  have e4 : idx_main_call2_v3 (idx_main_call2_v4 (ix2 r q)) = ix1 r := funext fun a => Fin.ext (by match a with | ⟨0, _⟩ => rfl)
  have e10 : idx_main_call2_v8 (idx_main_call2_v10 (ix2 r q)) = ix1 r := funext fun a => Fin.ext (by match a with | ⟨0, _⟩ => rfl)
  have e7 : ∀ k : Fin 24, idx_main_call2_v7 (ix1 r) k = ix2 r k := fun k =>
    funext fun a => Fin.ext (by match a with | ⟨0, _⟩ => rfl | ⟨1, _⟩ => rfl)
  have e4k : ∀ k : Fin 24, idx_main_call2_v3 (idx_main_call2_v4 (ix2 r k)) = ix1 r := fun k =>
    funext fun a => Fin.ext (by match a with | ⟨0, _⟩ => rfl)
  -- the shifted row at any entry of row r
  have hshift : ∀ k : Fin 24, val_main_call2_v5 (F := Ideal) x0 x1 x2 x3 x4 x5 x6 x7 (ix2 r k)
      = val_main_v53 (F := Ideal) x0 x1 x2 x3 x4 x5 x6 x7 (ix2 r k) - ⨆ j : Fin 24, val_main_v53 (F := Ideal) x0 x1 x2 x3 x4 x5 x6 x7 (ix2 r j) := by
    intro k
    rw [val_main_call2_v5_apply, val_main_call2_v4_apply, val_main_call2_v3_apply, e4k k, val_main_call2_v2_apply,
      val_main_call2_v1_apply, val_main_call2_cst_0_apply, rowMax_apply]
    show _ - max (Ideal.ofBits .f32 0xFF800000#32) _ = _
    rw [ExtremeReduce.ofBits_negInf, max_bot_left]
  -- the second layer's row r, as the row function of (the second aggregation, H)
  have hz : ∀ k : Fin 24, val_main_v53 (F := Ideal) x0 x1 x2 x3 x4 x5 x6 x7 (ix2 r k)
      = pre (fun d => val_main_v47 (F := Ideal) x0 x1 x2 x3 x4 (ix2 r d)) (fun d => val_main_v34 (F := Ideal) x0 x1 x2 x3 x4 (ix2 r d))
          (fun d f => x5 (ix2 d f)) (fun d f => x7 (ix2 d f)) (fun f => rowOf x6 (ix2 0 f)) k := fun k => pre53_apply x0 x1 x2 x3 x4 x5 x6 x7 r k
  generalize hzdef : pre (fun d => val_main_v47 (F := Ideal) x0 x1 x2 x3 x4 (ix2 r d)) (fun d => val_main_v34 (F := Ideal) x0 x1 x2 x3 x4 (ix2 r d))
      (fun d f => x5 (ix2 d f)) (fun d f => x7 (ix2 d f)) (fun f => rowOf x6 (ix2 0 f)) = z at hz
  have hsup : (⨆ j : Fin 24, val_main_v53 (F := Ideal) x0 x1 x2 x3 x4 x5 x6 x7 (ix2 r j)) = ⨆ j : Fin 24, z j := iSup_congr hz
  have hshift' : ∀ k : Fin 24, val_main_call2_v5 (F := Ideal) x0 x1 x2 x3 x4 x5 x6 x7 (ix2 r k) = z k - ⨆ j : Fin 24, z j := by
    intro k
    rw [hshift k, hz k, hsup]
  have hsum : (∑ k : Fin 24, val_main_call2_v6 (F := Ideal) x0 x1 x2 x3 x4 x5 x6 x7 (idx_main_call2_v7 (ix1 r) k))
      = ∑ k : Fin 24, Ideal.exp (z k - ⨆ j : Fin 24, z j) := by
    refine Finset.sum_congr rfl fun k _ => ?_
    rw [e7 k, val_main_call2_v6_apply, hshift' k, Ideal.hostUnary_exp_def]
  rw [val_main_v54_apply, val_main_call2_v10_apply, val_main_call2_v9_apply, val_main_call2_v8_apply, e10, val_main_call2_v7_apply,
    val_main_call2_cst_1_apply, hshift' q, hsum, outArr_apply, hzdef, Ideal.subf_def, Ideal.hostUnary_log_def, Ideal.ofBits_def,
    Ideal.ofBits_zero_f32, zero_add]
  rfl

end Cert.ReferenceIdeal.RefValue

end
-- ==== Proof.KernelHost.lean ====
/-
  The idealized kernel's result as the reference's staged value.

  Between its two dense regions the kernel's host operations are the reference's own: the two index rows of the edge
  list and the guarded reciprocal of the in-degree, the first aggregation before the first region, the second
  aggregation (of the first region's result) before the second.  Read back one stretch at a time, each buffer a region
  stages holds the reference's staged value of the arguments; a region's result array is then the whole-array layer of
  those arrays, which the reference's own reading folds back into its staged values.  So the kernel's result buffer
  ends at the reference's staged result of the launch contents of the arguments.
-/
import proofs.«108758_j17076789969651_2_alg».proof.Proof.Gen.KernelIdeal.Frame
import proofs.«108758_j17076789969651_2_alg».proof.Proof.KernelBlocks
import proofs.«108758_j17076789969651_2_alg».proof.Proof.RefRead
import proofs.«108758_j17076789969651_2_alg».proof.Proof.RefValue

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo Idealize.ShloMosaic.ValueIdx
open Cert.LibSageLayers

/-- Each operation's result read at its own buffer, and any other buffer left alone: the rewriting of the library's
    `after_results_simp`, here at a hypothesis. -/
macro "host_results_at " h:ident : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at $h:ident)

/-! ## The two programs' spellings of the same shapes and dimension records -/

/-- The reshaped buffers' shapes. -/
theorem shape_v1 : main_v1.ty.shape = S6400000 := rfl
theorem shape_v3 : main_v3.ty.shape = S6400000 := rfl
theorem shape_v28 : main_v28.ty.shape = S1x40 := rfl
theorem shape_v43 : main_v43.ty.shape = S1x24 := rfl

/-- The kernel's gather and scatter dimension records are the reference's (the same literals). -/
theorem rec0 : scatter_S200000_S6400000x1_S6400000_n_0_0_1 = Cert.ReferenceIdeal.scatter_S200000_S6400000x1_S6400000_n_0_0_1 := rfl
theorem rec1 : gather_S200000x16_S6400000x1_S6400000x16_1_0_n_n_0_1_116 = Cert.ReferenceIdeal.gather_S200000x16_S6400000x1_S6400000x16_1_0_n_n_0_1_116 := rfl
theorem rec2 : scatter_S200000x16_S6400000x1_S6400000x16_1_0_0_1 = Cert.ReferenceIdeal.scatter_S200000x16_S6400000x1_S6400000x16_1_0_0_1 := rfl
theorem rec3 : gather_S200000x40_S6400000x1_S6400000x40_1_0_n_n_0_1_140 = Cert.ReferenceIdeal.gather_S200000x40_S6400000x1_S6400000x40_1_0_n_n_0_1_140 := rfl
theorem rec4 : scatter_S200000x40_S6400000x1_S6400000x40_1_0_0_1 = Cert.ReferenceIdeal.scatter_S200000x40_S6400000x1_S6400000x40_1_0_0_1 := rfl

/-! ## The first two stretches: the index rows and the guarded reciprocal of the in-degree -/

theorem KA_v1 (V : Valuation τ sig (Elt Ideal)) :
    after (hostOps0_1 (F := Ideal)) (after (hostOps0 (F := Ideal)) V) (Proc.devRef .tc main_v1) = Cert.ReferenceIdeal.ReadP.val_main_v1 (F := Ideal) (V (Proc.devRef .tc main_arg1)) := by
  after_results_simp <;> rfl

theorem KA_v3 (V : Valuation τ sig (Elt Ideal)) :
    after (hostOps0_1 (F := Ideal)) (after (hostOps0 (F := Ideal)) V) (Proc.devRef .tc main_v3) = Cert.ReferenceIdeal.ReadP.val_main_v3 (F := Ideal) (V (Proc.devRef .tc main_arg1)) := by
  after_results_simp <;> rfl

theorem KA_v14 (V : Valuation τ sig (Elt Ideal)) :
    after (hostOps0_1 (F := Ideal)) (after (hostOps0 (F := Ideal)) V) (Proc.devRef .tc main_v14) = Cert.ReferenceIdeal.ReadP.val_main_v14 (F := Ideal) (V (Proc.devRef .tc main_arg1)) := by
  have e3 := KA_v3 V
  host_results_at e3
  after_results_simp
  rw [e3]
  simp only [TRef.toBuf, TRef.ofBuf]
  repeat rw [cast_eq]
  simp only [id, rec0, rec1, rec2, rec3, rec4, Cert.ReferenceIdeal.ReadP.val_main_v14, Cert.ReferenceIdeal.ReadP.val_main_v13, Cert.ReferenceIdeal.ReadP.val_main_v12, Cert.ReferenceIdeal.ReadP.val_main_v11, Cert.ReferenceIdeal.ReadP.val_main_v10, Cert.ReferenceIdeal.ReadP.val_main_v9, Cert.ReferenceIdeal.ReadP.val_main_v8, Cert.ReferenceIdeal.ReadP.val_main_v7, Cert.ReferenceIdeal.ReadP.val_main_v6, Cert.ReferenceIdeal.ReadP.val_main_v5, Cert.ReferenceIdeal.ReadP.val_main_v4, Cert.ReferenceIdeal.ReadP.val_main_call0_v1, Cert.ReferenceIdeal.ReadP.val_main_call0_v0, Cert.ReferenceIdeal.ReadP.val_main_cst, Cert.ReferenceIdeal.ReadP.val_main_cst_0, Cert.ReferenceIdeal.ReadP.val_main_cst_1, Cert.ReferenceIdeal.ReadP.val_main_cst_2, Cert.ReferenceIdeal.ReadP.val_main_cst_3, Cert.ReferenceIdeal.ReadP.val_main_cst_4]
  try with_reducible rfl

theorem keepKA_arg0 (V : Valuation τ sig (Elt Ideal)) :
    after (hostOps0_1 (F := Ideal)) (after (hostOps0 (F := Ideal)) V) (Proc.devRef .tc main_arg0) = V (Proc.devRef .tc main_arg0) := by
  after_results_simp

theorem keepKA_arg2 (V : Valuation τ sig (Elt Ideal)) :
    after (hostOps0_1 (F := Ideal)) (after (hostOps0 (F := Ideal)) V) (Proc.devRef .tc main_arg2) = V (Proc.devRef .tc main_arg2) := by
  after_results_simp

theorem keepKA_arg3 (V : Valuation τ sig (Elt Ideal)) :
    after (hostOps0_1 (F := Ideal)) (after (hostOps0 (F := Ideal)) V) (Proc.devRef .tc main_arg3) = V (Proc.devRef .tc main_arg3) := by
  after_results_simp

theorem keepKA_arg4 (V : Valuation τ sig (Elt Ideal)) :
    after (hostOps0_1 (F := Ideal)) (after (hostOps0 (F := Ideal)) V) (Proc.devRef .tc main_arg4) = V (Proc.devRef .tc main_arg4) := by
  after_results_simp

theorem keepKA_arg5 (V : Valuation τ sig (Elt Ideal)) :
    after (hostOps0_1 (F := Ideal)) (after (hostOps0 (F := Ideal)) V) (Proc.devRef .tc main_arg5) = V (Proc.devRef .tc main_arg5) := by
  after_results_simp

theorem keepKA_arg6 (V : Valuation τ sig (Elt Ideal)) :
    after (hostOps0_1 (F := Ideal)) (after (hostOps0 (F := Ideal)) V) (Proc.devRef .tc main_arg6) = V (Proc.devRef .tc main_arg6) := by
  after_results_simp

theorem keepKA_arg7 (V : Valuation τ sig (Elt Ideal)) :
    after (hostOps0_1 (F := Ideal)) (after (hostOps0 (F := Ideal)) V) (Proc.devRef .tc main_arg7) = V (Proc.devRef .tc main_arg7) := by
  after_results_simp

/-! ## The third stretch: the first aggregation and the first bias row -/

theorem KB_v27 (V : Valuation τ sig (Elt Ideal)) (x0 : (⟨S200000x16, .f32⟩ : BufTy).Contents (Elt Ideal))
    (x1 : (⟨S2x6400000, .i32⟩ : BufTy).Contents (Elt Ideal))
    (h1 : V (Proc.devRef .tc main_v1) = Cert.ReferenceIdeal.ReadP.val_main_v1 (F := Ideal) x1) (h3 : V (Proc.devRef .tc main_v3) = Cert.ReferenceIdeal.ReadP.val_main_v3 (F := Ideal) x1)
    (h14 : V (Proc.devRef .tc main_v14) = Cert.ReferenceIdeal.ReadP.val_main_v14 (F := Ideal) x1) (e0 : V (Proc.devRef .tc main_arg0) = x0) :
    after (hostOps0_2 (F := Ideal)) V (Proc.devRef .tc main_v27) = Cert.ReferenceIdeal.ReadP.val_main_v27 (F := Ideal) x0 x1 := by
  after_results_simp
  rw [h1, h3, h14, e0]
  simp only [id, rec0, rec1, rec2, rec3, rec4, Cert.ReferenceIdeal.ReadP.val_main_v27, Cert.ReferenceIdeal.ReadP.val_main_v26, Cert.ReferenceIdeal.ReadP.val_main_v25, Cert.ReferenceIdeal.ReadP.val_main_v24, Cert.ReferenceIdeal.ReadP.val_main_v23, Cert.ReferenceIdeal.ReadP.val_main_v22, Cert.ReferenceIdeal.ReadP.val_main_v21, Cert.ReferenceIdeal.ReadP.val_main_v20, Cert.ReferenceIdeal.ReadP.val_main_v19, Cert.ReferenceIdeal.ReadP.val_main_v18, Cert.ReferenceIdeal.ReadP.val_main_v17, Cert.ReferenceIdeal.ReadP.val_main_v16, Cert.ReferenceIdeal.ReadP.val_main_v15, Cert.ReferenceIdeal.ReadP.val_main_c, Cert.ReferenceIdeal.ReadP.val_main_c_5, Cert.ReferenceIdeal.ReadP.val_main_cst_6]
  try with_reducible rfl

theorem KB_v28 (V : Valuation τ sig (Elt Ideal)) :
    after (hostOps0_2 (F := Ideal)) V (Proc.devRef .tc main_v28) = shapeCast S1x40 (V (Proc.devRef .tc main_arg3)) shapeCasts_S40_S1x40 := by
  after_results_simp <;> rfl

theorem keepKB_v1 (V : Valuation τ sig (Elt Ideal)) :
    after (hostOps0_2 (F := Ideal)) V (Proc.devRef .tc main_v1) = V (Proc.devRef .tc main_v1) := by
  after_results_simp

theorem keepKB_v3 (V : Valuation τ sig (Elt Ideal)) :
    after (hostOps0_2 (F := Ideal)) V (Proc.devRef .tc main_v3) = V (Proc.devRef .tc main_v3) := by
  after_results_simp

theorem keepKB_v14 (V : Valuation τ sig (Elt Ideal)) :
    after (hostOps0_2 (F := Ideal)) V (Proc.devRef .tc main_v14) = V (Proc.devRef .tc main_v14) := by
  after_results_simp

theorem keepKB_arg0 (V : Valuation τ sig (Elt Ideal)) :
    after (hostOps0_2 (F := Ideal)) V (Proc.devRef .tc main_arg0) = V (Proc.devRef .tc main_arg0) := by
  after_results_simp

theorem keepKB_arg2 (V : Valuation τ sig (Elt Ideal)) :
    after (hostOps0_2 (F := Ideal)) V (Proc.devRef .tc main_arg2) = V (Proc.devRef .tc main_arg2) := by
  after_results_simp

theorem keepKB_arg4 (V : Valuation τ sig (Elt Ideal)) :
    after (hostOps0_2 (F := Ideal)) V (Proc.devRef .tc main_arg4) = V (Proc.devRef .tc main_arg4) := by
  after_results_simp

theorem keepKB_arg5 (V : Valuation τ sig (Elt Ideal)) :
    after (hostOps0_2 (F := Ideal)) V (Proc.devRef .tc main_arg5) = V (Proc.devRef .tc main_arg5) := by
  after_results_simp

theorem keepKB_arg6 (V : Valuation τ sig (Elt Ideal)) :
    after (hostOps0_2 (F := Ideal)) V (Proc.devRef .tc main_arg6) = V (Proc.devRef .tc main_arg6) := by
  after_results_simp

theorem keepKB_arg7 (V : Valuation τ sig (Elt Ideal)) :
    after (hostOps0_2 (F := Ideal)) V (Proc.devRef .tc main_arg7) = V (Proc.devRef .tc main_arg7) := by
  after_results_simp

/-! ## The fourth stretch: the second aggregation and the second bias row -/

theorem KC_v42 (V : Valuation τ sig (Elt Ideal)) (h : (⟨S200000x40, .f32⟩ : BufTy).Contents (Elt Ideal))
    (x1 : (⟨S2x6400000, .i32⟩ : BufTy).Contents (Elt Ideal))
    (h1 : V (Proc.devRef .tc main_v1) = Cert.ReferenceIdeal.ReadP.val_main_v1 (F := Ideal) x1) (h3 : V (Proc.devRef .tc main_v3) = Cert.ReferenceIdeal.ReadP.val_main_v3 (F := Ideal) x1)
    (h14 : V (Proc.devRef .tc main_v14) = Cert.ReferenceIdeal.ReadP.val_main_v14 (F := Ideal) x1) (e29 : V (Proc.devRef .tc main_v29) = h) :
    after (hostOps1 (F := Ideal)) V (Proc.devRef .tc main_v42) = Cert.ReferenceIdeal.RefValue.agg40 h x1 := by
  after_results_simp
  rw [h1, h3, h14, e29]
  simp only [id, rec0, rec1, rec2, rec3, rec4, Cert.ReferenceIdeal.RefValue.agg40, Cert.ReferenceIdeal.ReadP.val_main_v46, Cert.ReferenceIdeal.ReadP.val_main_v45, Cert.ReferenceIdeal.ReadP.val_main_v43, Cert.ReferenceIdeal.ReadP.val_main_v42, Cert.ReferenceIdeal.ReadP.val_main_v40, Cert.ReferenceIdeal.ReadP.val_main_v39, Cert.ReferenceIdeal.ReadP.val_main_v38, Cert.ReferenceIdeal.ReadP.val_main_v37, Cert.ReferenceIdeal.ReadP.val_main_v36, Cert.ReferenceIdeal.ReadP.val_main_v35, Cert.ReferenceIdeal.ReadP.val_main_c_7, Cert.ReferenceIdeal.ReadP.val_main_c_8, Cert.ReferenceIdeal.ReadP.val_main_cst_9]
  try with_reducible rfl

theorem KC_v43 (V : Valuation τ sig (Elt Ideal)) :
    after (hostOps1 (F := Ideal)) V (Proc.devRef .tc main_v43) = shapeCast S1x24 (V (Proc.devRef .tc main_arg6)) shapeCasts_S24_S1x24 := by
  after_results_simp <;> rfl

theorem keepKC_v29 (V : Valuation τ sig (Elt Ideal)) :
    after (hostOps1 (F := Ideal)) V (Proc.devRef .tc main_v29) = V (Proc.devRef .tc main_v29) := by
  after_results_simp

theorem keepKC_arg5 (V : Valuation τ sig (Elt Ideal)) :
    after (hostOps1 (F := Ideal)) V (Proc.devRef .tc main_arg5) = V (Proc.devRef .tc main_arg5) := by
  after_results_simp

theorem keepKC_arg7 (V : Valuation τ sig (Elt Ideal)) :
    after (hostOps1 (F := Ideal)) V (Proc.devRef .tc main_arg7) = V (Proc.devRef .tc main_arg7) := by
  after_results_simp

/-! ## The run's boundaries -/

section Run

variable (m : (ℓ : Loc nD τ sig) → Buf (Elt Ideal) ℓ) (ρ : Dev nD → PrngReg) (c : Dev nD)

/-- The first region's result array: the reference's staged rectified first layer of the launch contents. -/
theorem region0_result :
    W4 m ρ c (Proc.devRef .tc main_v29) = Cert.ReferenceIdeal.ReadP.val_main_v34 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  have a1 := KA_v1 (W0 m ρ c)
  have a3 := KA_v3 (W0 m ρ c)
  have a14 := KA_v14 (W0 m ρ c)
  have v27 : W3 m ρ c (Proc.devRef .tc main_v27) = Cert.ReferenceIdeal.ReadP.val_main_v27 (F := Ideal) (m ((c.tc : Thread nD τ).loc main_arg0)) (m ((c.tc : Thread nD τ).loc main_arg1)) :=
    KB_v27 (W2 m ρ c) _ _ a1 a3 a14 (keepKA_arg0 (W0 m ρ c))
  have v28 : W3 m ρ c (Proc.devRef .tc main_v28) = rowOf (m ((c.tc : Thread nD τ).loc main_arg3)) :=
    (KB_v28 (W2 m ρ c)).trans (by rw [show W2 m ρ c (Proc.devRef .tc main_arg3) = (m ((c.tc : Thread nD τ).loc main_arg3)) from keepKA_arg3 (W0 m ρ c)]; exact shapeCast_eq_rowOf _ _)
  have e0 : W3 m ρ c (Proc.devRef .tc main_arg0) = (m ((c.tc : Thread nD τ).loc main_arg0)) := (keepKB_arg0 (W2 m ρ c)).trans (keepKA_arg0 (W0 m ρ c))
  have e2 : W3 m ρ c (Proc.devRef .tc main_arg2) = (m ((c.tc : Thread nD τ).loc main_arg2)) := (keepKB_arg2 (W2 m ρ c)).trans (keepKA_arg2 (W0 m ρ c))
  have e4 : W3 m ρ c (Proc.devRef .tc main_arg4) = (m ((c.tc : Thread nD τ).loc main_arg4)) := (keepKB_arg4 (W2 m ρ c)).trans (keepKA_arg4 (W0 m ρ c))
  refine (W4_arr m ρ c 5).trans ((Blocks.final0 (V3 m ρ) c).trans ?_)
  show hiddenArr (M := 200000) (K := 16) (N := 40) (W3 m ρ c (Proc.devRef .tc main_v27)) (W3 m ρ c (Proc.devRef .tc main_arg0))
    (W3 m ρ c (Proc.devRef .tc main_arg2)) (W3 m ρ c (Proc.devRef .tc main_arg4)) (W3 m ρ c (Proc.devRef .tc main_v28)) = _
  rw [v27, v28, e0, e2, e4]
  exact (Cert.ReferenceIdeal.RefValue.hidden_eq _ _ _ _ _).symm

/-- The kernel's result buffer at the run's last boundary: the reference's staged result of the launch contents. -/
theorem result_eq :
    W6 m ρ c (Proc.devRef .tc main_v44) = Cert.ReferenceIdeal.ReadP.val_main_v54 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have a1 := KA_v1 (W0 m ρ c)
  have a3 := KA_v3 (W0 m ρ c)
  have a14 := KA_v14 (W0 m ρ c)
  have r0 := region0_result m ρ c
  -- the index rows and the reciprocal reach the fourth stretch unchanged
  have h1 : W4 m ρ c (Proc.devRef .tc main_v1) = Cert.ReferenceIdeal.ReadP.val_main_v1 (F := Ideal) (m ((c.tc : Thread nD τ).loc main_arg1)) :=
    (W4_of_ne m ρ c main_v1 (by decide)).trans ((keepKB_v1 (W2 m ρ c)).trans a1)
  have h3 : W4 m ρ c (Proc.devRef .tc main_v3) = Cert.ReferenceIdeal.ReadP.val_main_v3 (F := Ideal) (m ((c.tc : Thread nD τ).loc main_arg1)) :=
    (W4_of_ne m ρ c main_v3 (by decide)).trans ((keepKB_v3 (W2 m ρ c)).trans a3)
  have h14 : W4 m ρ c (Proc.devRef .tc main_v14) = Cert.ReferenceIdeal.ReadP.val_main_v14 (F := Ideal) (m ((c.tc : Thread nD τ).loc main_arg1)) :=
    (W4_of_ne m ρ c main_v14 (by decide)).trans ((keepKB_v14 (W2 m ρ c)).trans a14)
  have e5 : W4 m ρ c (Proc.devRef .tc main_arg5) = (m ((c.tc : Thread nD τ).loc main_arg5)) :=
    (W4_of_ne m ρ c main_arg5 (by decide)).trans ((keepKB_arg5 (W2 m ρ c)).trans (keepKA_arg5 (W0 m ρ c)))
  have e6 : W4 m ρ c (Proc.devRef .tc main_arg6) = (m ((c.tc : Thread nD τ).loc main_arg6)) :=
    (W4_of_ne m ρ c main_arg6 (by decide)).trans ((keepKB_arg6 (W2 m ρ c)).trans (keepKA_arg6 (W0 m ρ c)))
  have e7 : W4 m ρ c (Proc.devRef .tc main_arg7) = (m ((c.tc : Thread nD τ).loc main_arg7)) :=
    (W4_of_ne m ρ c main_arg7 (by decide)).trans ((keepKB_arg7 (W2 m ρ c)).trans (keepKA_arg7 (W0 m ρ c)))
  have v42 : W5 m ρ c (Proc.devRef .tc main_v42) = Cert.ReferenceIdeal.ReadP.val_main_v47 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
    (KC_v42 (W4 m ρ c) _ _ h1 h3 h14 r0).trans (Cert.ReferenceIdeal.RefValue.v47_eq _ _ _ _ _).symm
  have v29 : W5 m ρ c (Proc.devRef .tc main_v29) = Cert.ReferenceIdeal.ReadP.val_main_v34 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := (keepKC_v29 (W4 m ρ c)).trans r0
  have v43 : W5 m ρ c (Proc.devRef .tc main_v43) = rowOf (m ((c.tc : Thread nD τ).loc main_arg6)) :=
    (KC_v43 (W4 m ρ c)).trans (by rw [e6]; exact shapeCast_eq_rowOf _ _)
  have f5 : W5 m ρ c (Proc.devRef .tc main_arg5) = (m ((c.tc : Thread nD τ).loc main_arg5)) := (keepKC_arg5 (W4 m ρ c)).trans e5
  have f7 : W5 m ρ c (Proc.devRef .tc main_arg7) = (m ((c.tc : Thread nD τ).loc main_arg7)) := (keepKC_arg7 (W4 m ρ c)).trans e7
  refine (W6_arr m ρ c 5).trans ((Blocks.final1 (V5 m ρ) c).trans ?_)
  show outArr (M := 200000) (K := 40) (N := 24) (W5 m ρ c (Proc.devRef .tc main_v42)) (W5 m ρ c (Proc.devRef .tc main_v29))
    (W5 m ρ c (Proc.devRef .tc main_arg5)) (W5 m ρ c (Proc.devRef .tc main_arg7)) (W5 m ρ c (Proc.devRef .tc main_v43)) = _
  rw [v42, v29, v43, f5, f7]
  exact (Cert.ReferenceIdeal.RefValue.out_eq _ _ _ _ _ _ _ _).symm

end Run

end Cert.KernelIdeal.Host

end
-- ==== Proof.RefLink.lean ====
/-
  The reference's run, read back in four steps.

  The reference's @main is 85 host operations.  Its result as ONE term of the arguments would repeat the in-degree
  reciprocal and both aggregations many times over, so the fold of the operations is read back segment by segment
  instead: after the first 23 operations the two index rows and the guarded reciprocal of the in-degree are the
  staged values of the edge list; after the next 25 the rectified first layer is its staged value; after the next 16
  the second aggregation; after the last 21 the log-softmax of the second layer.  Each step reads the buffers the
  step before left, by name, and never opens them.
-/
import proofs.«108758_j17076789969651_2_alg».proof.Proof.RefRun
import proofs.«108758_j17076789969651_2_alg».proof.Proof.RefRead

set_option maxRecDepth 16384

noncomputable section

namespace Cert.ReferenceIdeal.Link

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

/-- Each operation's result read at its own buffer, and any other buffer left alone: the rewriting of the library's
    `after_results_simp`, here at a hypothesis. -/
macro "results_at " h:ident : tactic =>
  `(tactic| simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at $h:ident)

/-- Operations run one list after another are their concatenation run as one. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The first dense layer with its rectifier; the second with its log-softmax. -/
abbrev opsB : List (HloOp τ sig (Elt Ideal)) := opsB1 ++ opsB2
abbrev opsD : List (HloOp τ sig (Elt Ideal)) := opsD1 ++ opsD2

theorem ops_cut4 : (ops : List (HloOp τ sig (Elt Ideal))) = opsA ++ (opsB ++ (opsC ++ opsD)) := by
  rw [ops_cut]
  simp only [opsB, opsD, List.append_assoc]

/-! ## Step A: the index rows and the guarded reciprocal of the in-degree -/

theorem A_v1 (V : Valuation τ sig (Elt Ideal)) :
    after (opsA (F := Ideal)) V (Proc.devRef .tc main_v1) = val_main_v1 (F := Ideal) (V (Proc.devRef .tc main_arg1)) := by
  after_results_simp <;> rfl

theorem A_v3 (V : Valuation τ sig (Elt Ideal)) :
    after (opsA (F := Ideal)) V (Proc.devRef .tc main_v3) = val_main_v3 (F := Ideal) (V (Proc.devRef .tc main_arg1)) := by
  after_results_simp <;> rfl

theorem A_v14 (V : Valuation τ sig (Elt Ideal)) :
    after (opsA (F := Ideal)) V (Proc.devRef .tc main_v14) = val_main_v14 (F := Ideal) (V (Proc.devRef .tc main_arg1)) := by
  have e3 := A_v3 V
  results_at e3
  after_results_simp
  rw [e3]
  simp only [TRef.toBuf, TRef.ofBuf]
  repeat rw [cast_eq]
  simp only [id, val_main_v14, val_main_v13, val_main_v12, val_main_v11, val_main_v10, val_main_v9, val_main_v8, val_main_v7, val_main_v6, val_main_v5, val_main_v4, val_main_call0_v1, val_main_call0_v0, val_main_cst, val_main_cst_0, val_main_cst_1, val_main_cst_2, val_main_cst_3, val_main_cst_4]
  try with_reducible rfl

theorem keepA_arg0 (V : Valuation τ sig (Elt Ideal)) :
    after (opsA (F := Ideal)) V (Proc.devRef .tc main_arg0) = V (Proc.devRef .tc main_arg0) := by
  after_results_simp

theorem keepA_arg2 (V : Valuation τ sig (Elt Ideal)) :
    after (opsA (F := Ideal)) V (Proc.devRef .tc main_arg2) = V (Proc.devRef .tc main_arg2) := by
  after_results_simp

theorem keepA_arg3 (V : Valuation τ sig (Elt Ideal)) :
    after (opsA (F := Ideal)) V (Proc.devRef .tc main_arg3) = V (Proc.devRef .tc main_arg3) := by
  after_results_simp

theorem keepA_arg4 (V : Valuation τ sig (Elt Ideal)) :
    after (opsA (F := Ideal)) V (Proc.devRef .tc main_arg4) = V (Proc.devRef .tc main_arg4) := by
  after_results_simp

theorem keepA_arg5 (V : Valuation τ sig (Elt Ideal)) :
    after (opsA (F := Ideal)) V (Proc.devRef .tc main_arg5) = V (Proc.devRef .tc main_arg5) := by
  after_results_simp

theorem keepA_arg6 (V : Valuation τ sig (Elt Ideal)) :
    after (opsA (F := Ideal)) V (Proc.devRef .tc main_arg6) = V (Proc.devRef .tc main_arg6) := by
  after_results_simp

theorem keepA_arg7 (V : Valuation τ sig (Elt Ideal)) :
    after (opsA (F := Ideal)) V (Proc.devRef .tc main_arg7) = V (Proc.devRef .tc main_arg7) := by
  after_results_simp

/-! ## Step B: the first aggregation and the rectified first layer -/

theorem B_v34 (V : Valuation τ sig (Elt Ideal)) (x0 : (⟨S200000x16, .f32⟩ : BufTy).Contents (Elt Ideal))
    (x1 : (⟨S2x6400000, .i32⟩ : BufTy).Contents (Elt Ideal)) (x2 : (⟨S16x40, .f32⟩ : BufTy).Contents (Elt Ideal))
    (x3 : (⟨S40, .f32⟩ : BufTy).Contents (Elt Ideal)) (x4 : (⟨S16x40, .f32⟩ : BufTy).Contents (Elt Ideal))
    (h1 : V (Proc.devRef .tc main_v1) = val_main_v1 (F := Ideal) x1) (h3 : V (Proc.devRef .tc main_v3) = val_main_v3 (F := Ideal) x1)
    (h14 : V (Proc.devRef .tc main_v14) = val_main_v14 (F := Ideal) x1)
    (e0 : V (Proc.devRef .tc main_arg0) = x0) (e2 : V (Proc.devRef .tc main_arg2) = x2) (e3 : V (Proc.devRef .tc main_arg3) = x3) (e4 : V (Proc.devRef .tc main_arg4) = x4) :
    after opsB V (Proc.devRef .tc main_v34) = val_main_v34 (F := Ideal) x0 x1 x2 x3 x4 := by
  simp only [opsB, opsB1, opsB2, List.cons_append, List.nil_append]
  after_results_simp
  rw [h1, h3, h14, e0, e2, e3, e4]
  simp only [TRef.toBuf, TRef.ofBuf]
  repeat rw [cast_eq]
  simp only [val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_c, val_main_c_5, val_main_cst_6, val_main_call1_cst, val_main_call1_v0]
  try with_reducible rfl

theorem keepB_v1 (V : Valuation τ sig (Elt Ideal)) :
    after opsB V (Proc.devRef .tc main_v1) = V (Proc.devRef .tc main_v1) := by
  simp only [opsB, opsB1, opsB2, List.cons_append, List.nil_append]
  after_results_simp

theorem keepB_v3 (V : Valuation τ sig (Elt Ideal)) :
    after opsB V (Proc.devRef .tc main_v3) = V (Proc.devRef .tc main_v3) := by
  simp only [opsB, opsB1, opsB2, List.cons_append, List.nil_append]
  after_results_simp

theorem keepB_v14 (V : Valuation τ sig (Elt Ideal)) :
    after opsB V (Proc.devRef .tc main_v14) = V (Proc.devRef .tc main_v14) := by
  simp only [opsB, opsB1, opsB2, List.cons_append, List.nil_append]
  after_results_simp

theorem keepB_arg5 (V : Valuation τ sig (Elt Ideal)) :
    after opsB V (Proc.devRef .tc main_arg5) = V (Proc.devRef .tc main_arg5) := by
  simp only [opsB, opsB1, opsB2, List.cons_append, List.nil_append]
  after_results_simp

theorem keepB_arg6 (V : Valuation τ sig (Elt Ideal)) :
    after opsB V (Proc.devRef .tc main_arg6) = V (Proc.devRef .tc main_arg6) := by
  simp only [opsB, opsB1, opsB2, List.cons_append, List.nil_append]
  after_results_simp

theorem keepB_arg7 (V : Valuation τ sig (Elt Ideal)) :
    after opsB V (Proc.devRef .tc main_arg7) = V (Proc.devRef .tc main_arg7) := by
  simp only [opsB, opsB1, opsB2, List.cons_append, List.nil_append]
  after_results_simp

/-! ## Step C: the second aggregation -/

theorem C_v47 (V : Valuation τ sig (Elt Ideal)) (x0 : (⟨S200000x16, .f32⟩ : BufTy).Contents (Elt Ideal))
    (x1 : (⟨S2x6400000, .i32⟩ : BufTy).Contents (Elt Ideal)) (x2 : (⟨S16x40, .f32⟩ : BufTy).Contents (Elt Ideal))
    (x3 : (⟨S40, .f32⟩ : BufTy).Contents (Elt Ideal)) (x4 : (⟨S16x40, .f32⟩ : BufTy).Contents (Elt Ideal))
    (h1 : V (Proc.devRef .tc main_v1) = val_main_v1 (F := Ideal) x1) (h3 : V (Proc.devRef .tc main_v3) = val_main_v3 (F := Ideal) x1)
    (h14 : V (Proc.devRef .tc main_v14) = val_main_v14 (F := Ideal) x1)
    (h34 : V (Proc.devRef .tc main_v34) = val_main_v34 (F := Ideal) x0 x1 x2 x3 x4) :
    after (opsC (F := Ideal)) V (Proc.devRef .tc main_v47) = val_main_v47 (F := Ideal) x0 x1 x2 x3 x4 := by
  after_results_simp
  rw [h1, h3, h14, h34]
  simp only [val_main_v47, val_main_v46, val_main_v45, val_main_v44, val_main_v43, val_main_v42, val_main_v41, val_main_v40, val_main_v39, val_main_v38, val_main_v37, val_main_v36, val_main_v35, val_main_c_7, val_main_c_8, val_main_cst_9]
  try with_reducible rfl

theorem keepC_v34 (V : Valuation τ sig (Elt Ideal)) :
    after (opsC (F := Ideal)) V (Proc.devRef .tc main_v34) = V (Proc.devRef .tc main_v34) := by
  after_results_simp

theorem keepC_arg5 (V : Valuation τ sig (Elt Ideal)) :
    after (opsC (F := Ideal)) V (Proc.devRef .tc main_arg5) = V (Proc.devRef .tc main_arg5) := by
  after_results_simp

theorem keepC_arg6 (V : Valuation τ sig (Elt Ideal)) :
    after (opsC (F := Ideal)) V (Proc.devRef .tc main_arg6) = V (Proc.devRef .tc main_arg6) := by
  after_results_simp

theorem keepC_arg7 (V : Valuation τ sig (Elt Ideal)) :
    after (opsC (F := Ideal)) V (Proc.devRef .tc main_arg7) = V (Proc.devRef .tc main_arg7) := by
  after_results_simp

/-! ## Step D: the second layer and its log-softmax -/

theorem D_v54 (V : Valuation τ sig (Elt Ideal)) (x0 : (⟨S200000x16, .f32⟩ : BufTy).Contents (Elt Ideal))
    (x1 : (⟨S2x6400000, .i32⟩ : BufTy).Contents (Elt Ideal)) (x2 : (⟨S16x40, .f32⟩ : BufTy).Contents (Elt Ideal))
    (x3 : (⟨S40, .f32⟩ : BufTy).Contents (Elt Ideal)) (x4 : (⟨S16x40, .f32⟩ : BufTy).Contents (Elt Ideal))
    (x5 : (⟨S40x24, .f32⟩ : BufTy).Contents (Elt Ideal)) (x6 : (⟨S24, .f32⟩ : BufTy).Contents (Elt Ideal))
    (x7 : (⟨S40x24, .f32⟩ : BufTy).Contents (Elt Ideal))
    (h47 : V (Proc.devRef .tc main_v47) = val_main_v47 (F := Ideal) x0 x1 x2 x3 x4)
    (h34 : V (Proc.devRef .tc main_v34) = val_main_v34 (F := Ideal) x0 x1 x2 x3 x4)
    (e5 : V (Proc.devRef .tc main_arg5) = x5) (e6 : V (Proc.devRef .tc main_arg6) = x6) (e7 : V (Proc.devRef .tc main_arg7) = x7) :
    after opsD V (Proc.devRef .tc main_v54) = val_main_v54 (F := Ideal) x0 x1 x2 x3 x4 x5 x6 x7 := by
  simp only [opsD, opsD1, opsD2, List.cons_append, List.nil_append]
  after_results_simp
  rw [h47, h34, e5, e6, e7]
  simp only [TRef.toBuf, TRef.ofBuf]
  repeat rw [cast_eq]
  simp only [val_main_v54, val_main_call2_v10, val_main_call2_v9, val_main_call2_v8, val_main_call2_v7, val_main_call2_v6, val_main_call2_v5, val_main_call2_v4, val_main_call2_v3, val_main_call2_v2, val_main_call2_v1, val_main_call2_v0, val_main_call2_cst, val_main_call2_cst_0, val_main_call2_cst_1, val_main_v53, val_main_v52, val_main_v51, val_main_v50, val_main_v49, val_main_v48]
  try with_reducible rfl

/-! ## The four steps in a row -/

/-- The fold of all 85 operations, at the result buffer, is the staged value of the arguments' contents. -/
theorem result_eq (W : Valuation τ sig (Elt Ideal)) :
    after (ops (F := Ideal)) W (Proc.devRef .tc main_v54)
      = val_main_v54 (F := Ideal) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  rw [ops_cut4, after_append, after_append, after_append]
  have a1 := A_v1 W
  have a3 := A_v3 W
  have a14 := A_v14 W
  have b34 := B_v34 (after opsA W) _ _ _ _ _ a1 a3 a14 (keepA_arg0 W) (keepA_arg2 W) (keepA_arg3 W) (keepA_arg4 W)
  have b1 := (keepB_v1 (after opsA W)).trans a1
  have b3 := (keepB_v3 (after opsA W)).trans a3
  have b14 := (keepB_v14 (after opsA W)).trans a14
  have c47 := C_v47 (after opsB (after opsA W)) _ _ _ _ _ b1 b3 b14 b34
  have c34 := (keepC_v34 (after opsB (after opsA W))).trans b34
  exact D_v54 (after opsC (after opsB (after opsA W))) _ _ _ _ _ _ _ _ c47 c34
    ((keepC_arg5 _).trans ((keepB_arg5 _).trans (keepA_arg5 W)))
    ((keepC_arg6 _).trans ((keepB_arg6 _).trans (keepA_arg6 W)))
    ((keepC_arg7 _).trans ((keepB_arg7 _).trans (keepA_arg7 W)))

end Cert.ReferenceIdeal.Link

end
-- ==== Proof.RefArgs.lean ====
/-
  The reference writes none of its arguments: no operation of its @main has an argument buffer as its result, so the fold
  of the 85 operations, read at an argument, is the contents it started from.
-/
import proofs.«108758_j17076789969651_2_alg».proof.Proof.RefRun
import Idealize.ShloMosaic.PureOps.Ideal

set_option maxRecDepth 16384

noncomputable section

namespace Cert.ReferenceIdeal.Kept

open Cert.ReferenceIdeal Cert.ReferenceIdeal.Gen Cert.ReferenceIdeal.ValueP
open Idealize.ShloMosaic Idealize.ShloMosaic.TcCoe Idealize.SL.Sem Idealize.ShloMosaic.StableHlo

theorem arg0 (W : Valuation τ sig (Elt Ideal)) :
    after (ops (F := Ideal)) W (Proc.devRef .tc main_arg0) = W (Proc.devRef .tc main_arg0) := by
  after_results_simp

theorem arg1 (W : Valuation τ sig (Elt Ideal)) :
    after (ops (F := Ideal)) W (Proc.devRef .tc main_arg1) = W (Proc.devRef .tc main_arg1) := by
  after_results_simp

theorem arg2 (W : Valuation τ sig (Elt Ideal)) :
    after (ops (F := Ideal)) W (Proc.devRef .tc main_arg2) = W (Proc.devRef .tc main_arg2) := by
  after_results_simp

theorem arg3 (W : Valuation τ sig (Elt Ideal)) :
    after (ops (F := Ideal)) W (Proc.devRef .tc main_arg3) = W (Proc.devRef .tc main_arg3) := by
  after_results_simp

theorem arg4 (W : Valuation τ sig (Elt Ideal)) :
    after (ops (F := Ideal)) W (Proc.devRef .tc main_arg4) = W (Proc.devRef .tc main_arg4) := by
  after_results_simp

theorem arg5 (W : Valuation τ sig (Elt Ideal)) :
    after (ops (F := Ideal)) W (Proc.devRef .tc main_arg5) = W (Proc.devRef .tc main_arg5) := by
  after_results_simp

theorem arg6 (W : Valuation τ sig (Elt Ideal)) :
    after (ops (F := Ideal)) W (Proc.devRef .tc main_arg6) = W (Proc.devRef .tc main_arg6) := by
  after_results_simp

theorem arg7 (W : Valuation τ sig (Elt Ideal)) :
    after (ops (F := Ideal)) W (Proc.devRef .tc main_arg7) = W (Proc.devRef .tc main_arg7) := by
  after_results_simp

end Cert.ReferenceIdeal.Kept

end
-- ==== Proof.lean ====
/-
  A two-layer mean-aggregating graph network on 200000 nodes and 6400000 edges: the kernel against its plain reference,
  on the extended reals.

  Both programs compute, on the host, the in-degree of every node and its guarded reciprocal, gather the features at the
  edges' sources and add them up at the edges' targets, and scale each row by the reciprocal.  The kernel then runs each
  dense layer — (a · Wl + x · Wr) + b, rectified in the first layer, passed through a row-wise log-softmax in the second —
  as a region over 20 blocks of 10000 rows; the reference writes the same layers as whole-array operations, adding the bias
  before the second product.  A change of float format is the identity on the extended reals and a matrix product into
  zero is the plain sum of products, so block t of a region's result is rows 10000·t … of one whole-array layer, the
  twenty blocks tile the array, and the two orders of the three-term sum agree by commutativity and associativity of
  addition, which hold on the extended reals with no condition on the entries: the precondition is never opened.
  The aggregations are the same operations in both programs and are carried as they stand.

  The three frames: the kernel's two are generated whole; the reference's is its run with the result dropped.  The
  idealization rewrote nothing, so `preserves` is trivial.
-/
import proofs.«108758_j17076789969651_2_alg».proof.Defs
import proofs.«108758_j17076789969651_2_alg».proof.Proof.Gen.Kernel
import proofs.«108758_j17076789969651_2_alg».proof.Proof.Gen.Kernel.Skeleton
import proofs.«108758_j17076789969651_2_alg».proof.Proof.Gen.Kernel.Launch
import proofs.«108758_j17076789969651_2_alg».proof.Proof.Gen.Kernel.Points
import proofs.«108758_j17076789969651_2_alg».proof.Proof.Gen.Kernel.Frame
import proofs.«108758_j17076789969651_2_alg».proof.Proof.Gen.KernelIdeal
import proofs.«108758_j17076789969651_2_alg».proof.Proof.Gen.KernelIdeal.Skeleton
import proofs.«108758_j17076789969651_2_alg».proof.Proof.Gen.KernelIdeal.Launch
import proofs.«108758_j17076789969651_2_alg».proof.Proof.Gen.KernelIdeal.Points
import proofs.«108758_j17076789969651_2_alg».proof.Proof.Gen.KernelIdeal.Frame
import proofs.«108758_j17076789969651_2_alg».proof.Proof.Gen.ReferenceIdeal
import proofs.«108758_j17076789969651_2_alg».proof.Proof.Gen.Pre_finite_inputs
import proofs.«108758_j17076789969651_2_alg».proof.Proof.KernelRun
import proofs.«108758_j17076789969651_2_alg».proof.Proof.KernelHost
import proofs.«108758_j17076789969651_2_alg».proof.Proof.RefRun
import proofs.«108758_j17076789969651_2_alg».proof.Proof.RefLink
import proofs.«108758_j17076789969651_2_alg».proof.Proof.RefArgs
import Idealize.ShloMosaic.Adequacy
import Idealize.ShloMosaic.Init

noncomputable section

namespace Cert.Proof

open Idealize.ShloMosaic Idealize.SL.Sem Idealize.ShloMosaic.StableHlo

/-- The kernel as printed runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs, and none of its 85 operations writes an argument. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c =>
    ⟨(h c _).trans (Cert.ReferenceIdeal.Kept.arg0 _), (h c _).trans (Cert.ReferenceIdeal.Kept.arg1 _),
     (h c _).trans (Cert.ReferenceIdeal.Kept.arg2 _), (h c _).trans (Cert.ReferenceIdeal.Kept.arg3 _),
     (h c _).trans (Cert.ReferenceIdeal.Kept.arg4 _), (h c _).trans (Cert.ReferenceIdeal.Kept.arg5 _),
     (h c _).trans (Cert.ReferenceIdeal.Kept.arg6 _), (h c _).trans (Cert.ReferenceIdeal.Kept.arg7 _)⟩)
    (Cert.ReferenceIdeal.ValueP.run (F := Ideal) m ρ)

/-- Both idealized programs end with the result at the reference's staged value of the arguments' launch contents: the
    kernel's two regions leave the two layers of the aggregations, block by block; the reference's fold reads back as
    the same staged value; and the launch contents agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.Host.result_eq m ρ c), (h c).2⟩)
      (Cert.KernelIdeal.Named.run_named (F := Ideal) m ρ)
  · refine (θ_run Cert.ReferenceIdeal.defs _ _).mono (fun r h c => ⟨?_,
      (h c _).trans (Cert.ReferenceIdeal.Kept.arg0 _), (h c _).trans (Cert.ReferenceIdeal.Kept.arg1 _),
      (h c _).trans (Cert.ReferenceIdeal.Kept.arg2 _), (h c _).trans (Cert.ReferenceIdeal.Kept.arg3 _),
      (h c _).trans (Cert.ReferenceIdeal.Kept.arg4 _), (h c _).trans (Cert.ReferenceIdeal.Kept.arg5 _),
      (h c _).trans (Cert.ReferenceIdeal.Kept.arg6 _), (h c _).trans (Cert.ReferenceIdeal.Kept.arg7 _)⟩)
      (Cert.ReferenceIdeal.ValueP.run (F := Ideal) m' ρ')
    refine (h c Cert.ReferenceIdeal.main_v54).trans ((Cert.ReferenceIdeal.Link.result_eq _).trans ?_)
    obtain ⟨e0, e1, e2, e3, e4, e5, e6, e7⟩ := hagree c
    show Cert.ReferenceIdeal.ReadP.val_main_v54 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
